-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x2 .f32) (main_arg1 : FVec F S8x4096x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x4096x2 : Shape := ⟨3, ![8, 4096, 2]⟩
abbrev S8x4096x1 : Shape := ⟨3, ![8, 4096, 1]⟩
abbrev S8x4096 : Shape := ⟨2, ![8, 4096]⟩
abbrev S8x1x4096 : Shape := ⟨3, ![8, 1, 4096]⟩
abbrev S1x2048x1 : Shape := ⟨3, ![1, 2048, 1]⟩
abbrev S1x1x1024 : Shape := ⟨3, ![1, 1, 1024]⟩
abbrev S1x1x4096 : Shape := ⟨3, ![1, 1, 4096]⟩
abbrev S2048x1 : Shape := ⟨2, ![2048, 1]⟩
abbrev S1x4096 : Shape := ⟨2, ![1, 4096]⟩
abbrev S1x1024 : Shape := ⟨2, ![1, 1024]⟩
abbrev S2048x1024 : Shape := ⟨2, ![2048, 1024]⟩
abbrev S2048 : Shape := ⟨1, ![2048]⟩
abbrev S1024 : Shape := ⟨1, ![1024]⟩
abbrev S_ : Shape := ⟨0, ![]⟩
abbrev S8 : Shape := ⟨1, ![8]⟩

abbrev nBuf : Space → Nat
  | .hbm => 35
  | .vmem => 14
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096x1, .f32⟩
  | .hbm, ⟨6, _⟩ => ⟨S8x4096, .f32⟩
  | .hbm, ⟨7, _⟩ => ⟨S8x4096x1, .f32⟩
  | .hbm, ⟨8, _⟩ => ⟨S8x4096x1, .f32⟩
  | .hbm, ⟨9, _⟩ => ⟨S8x4096, .f32⟩
  | .hbm, ⟨10, _⟩ => ⟨S8x1x4096, .f32⟩
  | .hbm, ⟨11, _⟩ => ⟨S8x4096x1, .f32⟩
  | .hbm, ⟨12, _⟩ => ⟨S8x4096, .f32⟩
  | .hbm, ⟨13, _⟩ => ⟨S8x1x4096, .f32⟩
  | .hbm, ⟨14, _⟩ => ⟨S8x4096x1, .f32⟩
  | .hbm, ⟨15, _⟩ => ⟨S8x1x4096, .f32⟩
  | .hbm, ⟨16, _⟩ => ⟨S8x4096, .f32⟩
  | .hbm, ⟨17, _⟩ => ⟨S_, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .local _ .vmem, ⟨0, _⟩ => ⟨S1x2048x1, .f32⟩
  | .local _ .vmem, ⟨1, _⟩ => ⟨S1x2048x1, .f32⟩
  | .local _ .vmem, ⟨2, _⟩ => ⟨S1x2048x1, .f32⟩
  | .local _ .vmem, ⟨3, _⟩ => ⟨S1x2048x1, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x2048x1, .f32⟩
  | .local _ .vmem, ⟨9, _⟩ => ⟨S1x2048x1, .f32⟩
  | .local _ .vmem, ⟨10, _⟩ => ⟨S1x1x4096, .f32⟩
  | .local _ .vmem, ⟨11, _⟩ => ⟨S1x1x4096, .f32⟩
  | .local _ .vmem, ⟨12, _⟩ => ⟨S2048x1, .f32⟩
  | .local _ .vmem, ⟨13, _⟩ => ⟨S1x4096, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v32 : BitVec 32 := Scalar.muli arg2 c1024_i32
  v32
def k0_off1 (i : grid0.Coords) : Fin 2 → Nat :=
  let c0_19 : Index := 0#32
  let arg2 : BitVec 32 := BitVec.ofNat 32 (i 2).val
  let c1024_i32 : BitVec 32 := 1024#32
  let v32 : BitVec 32 := Scalar.muli arg2 c1024_i32
  let v33 : BitVec 32 := v32
  let v34 : Index := Scalar.indexCast v33
  ![0, v34.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  slices_S8x4096x2_S8x4096x1_0_0_0 : S8x4096x2.Slices ![0, 0, 0] S8x4096x1
  shapeCasts_S8x4096x1_S8x4096 : S8x4096x1.ShapeCasts S8x4096
  bcast_S8x4096_S8x4096x1_0_1 : S8x4096.BroadcastsInDim S8x4096x1 (![0, 1] : Fin 2 → Fin S8x4096x1.rank)
  slices_S8x4096x2_S8x4096x1_0_0_1 : S8x4096x2.Slices ![0, 0, 1] S8x4096x1
  bcast_S8x4096_S8x1x4096_0_2 : S8x4096.BroadcastsInDim S8x1x4096 (![0, 2] : Fin 2 → Fin S8x1x4096.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  h_S1x1024 : 0 < S1x1024.numel
  reduces_S2048x1024_S1024 : S2048x1024.Reduces [0] S1024
  shapeCasts_S1024_S1x1024 : S1024.ShapeCasts S1x1024
  shapeCasts_S1x1024_S1x1024 : S1x1024.ShapeCasts S1x1024
  shapeCasts_S2048x1_S1x2048x1 : S2048x1.ShapeCasts S1x2048x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S8x4096_S8_d1 : S8x4096.ReducesTo [1] S8
  h_S_ : 0 < S_.numel
  bcast_S_S8 : S_.BroadcastsInDim S8 (![] : Fin 0 → Fin S8.rank)
  shapeCasts_S8x1x4096_S8x4096 : S8x1x4096.ShapeCasts S8x4096
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S8x4096x1.size a
  hwx0_0 : ∀ i : grid0.Coords, EltTy.bits .f32 = 32 ∨ (Rect.block (s := S8x4096x1) S1x2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x4096x1.size a
  hwx0_1 : ∀ i : grid0.Coords, EltTy.bits .f32 = 32 ∨ (Rect.block (s := S8x4096x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S8x4096x1.size a
  hwx0_4 : ∀ i : grid0.Coords, EltTy.bits .f32 = 32 ∨ (Rect.block (s := S8x4096x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S8x1x4096.size a
  hwx0_5 : ∀ i : grid0.Coords, EltTy.bits .f32 = 32 ∨ (Rect.block (s := S8x1x4096) S1x1x4096.size (cc0_transform_5 i) (hinb0_5 i)).WholeWords (EltTy.packing .f32)

variable [Facts₀]

abbrev win0_0 : Pipeline.Window sig grid0 :=
  Pipeline.Window.ofSpec (Memref.whole main_v2) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S1x2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S1x1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2 : Shape := ⟨3, ![8, 4096, 2]⟩
abbrev S8x4096x1x2 : Shape := ⟨4, ![8, 4096, 1, 2]⟩
abbrev S8x1x4096x2 : Shape := ⟨4, ![8, 1, 4096, 2]⟩
abbrev S8x4096x4096x2 : Shape := ⟨4, ![8, 4096, 4096, 2]⟩
abbrev S_ : Shape := ⟨0, ![]⟩
abbrev S8x4096x4096 : Shape := ⟨3, ![8, 4096, 4096]⟩
abbrev S8x4096 : Shape := ⟨2, ![8, 4096]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x1x2, .f32⟩
  | .hbm, ⟨3, _⟩ => ⟨S8x1x4096x2, .f32⟩
  | .hbm, ⟨4, _⟩ => ⟨S8x4096x4096x2, .f32⟩
  | .hbm, ⟨5, _⟩ => ⟨S8x4096x4096x2, .f32⟩
  | .hbm, ⟨6, _⟩ => ⟨S8x4096x4096x2, .f32⟩
  | .hbm, ⟨7, _⟩ => ⟨S8x4096x4096x2, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S8x4096x2_S8x4096x1x2_0_1_3 : S8x4096x2.BroadcastsInDim S8x4096x1x2 (![0, 1, 3] : Fin 3 → Fin S8x4096x1x2.rank)
  bcast_S8x4096x2_S8x1x4096x2_0_2_3 : S8x4096x2.BroadcastsInDim S8x1x4096x2 (![0, 2, 3] : Fin 3 → Fin S8x1x4096x2.rank)
  bcast_S8x4096x1x2_S8x4096x4096x2_0_1_2_3 : S8x4096x1x2.BroadcastsInDim S8x4096x4096x2 (![0, 1, 2, 3] : Fin 4 → Fin S8x4096x4096x2.rank)
  bcast_S8x1x4096x2_S8x4096x4096x2_0_1_2_3 : S8x1x4096x2.BroadcastsInDim S8x4096x4096x2 (![0, 1, 2, 3] : Fin 4 → Fin S8x4096x4096x2.rank)
  reducesTo_S8x4096x4096x2_S8x4096x4096_d3 : S8x4096x4096x2.ReducesTo [3] S8x4096x4096
  h_S_ : 0 < S_.numel
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096

variable [Facts₀]

class Facts : Prop extends Facts₀ where

variable [Facts]
-- ==== Proof.LibCoordPlane.lean ====
/-
  General reading lemmas for point sets stored as an `[n, p, d]` array of `d` coordinates per point, over any extents
  and any element type.

  * One coordinate plane of the array — the unit-width slice at coordinate `k`, flattened to `[n, p]` — laid out as a
    column `[n, p, 1]` reads, at `(b, ρ, u)`, the array at `(b, ρ, k)`; laid out as a row `[n, 1, p]` it reads the same
    entry at `(b, u, ρ)`.
  * A column `[n, p, 1]` or a row `[n, 1, p]` flattened to `[n, p]` reads, at `(b, ρ)`, its entry `ρ` of batch `b`.
-/
import Idealize.ShloMosaic.Lib.ValueIdx
import Idealize.ShloMosaic.Lib.Pipeline.Value

noncomputable section

namespace Cert.Lib.CoordPlane

open Idealize.ShloMosaic Idealize.ShloMosaic.ValueIdx

variable {α : Type}

/-- The unit-width slice at coordinate `k`, flattened, at `(b, ρ)`. -/
theorem plane_apply {n p d : ℕ} (off : Fin 3 → ℕ) (k : ℕ) (hoff : off = ![0, 0, k]) (x : (⟨3, ![n, p, d]⟩ : Shape).Idx → α)
    (hs : (⟨3, ![n, p, d]⟩ : Shape).Slices off ⟨3, ![n, p, 1]⟩) (hc : (⟨3, ![n, p, 1]⟩ : Shape).ShapeCasts ⟨2, ![n, p]⟩)
    (b : Fin n) (ρ : Fin p) (kk : Fin d) (hk : kk.val = k) :
    shapeCast ⟨2, ![n, p]⟩ (extractStridedSlice ⟨3, ![n, p, 1]⟩ off x hs) hc (ix2 b ρ) = x (ix3 b ρ kk) := by
  subst hoff
  refine (shapeCast_apply _ hc (ix2 b ρ) (ix3 b ρ (0 : Fin 1)) ?_).trans ?_
  · rw [Shape.rowMajor_val_three, Shape.rowMajor_val_two]
    show (b.val * p + ρ.val) * 1 + 0 = b.val * p + ρ.val
    omega
  · refine extractStridedSlice_apply _ x hs (ix3 b ρ (0 : Fin 1)) (ix3 b ρ kk) fun a => ?_
    match a with
    | ⟨0, _⟩ => show b.val = 0 + b.val; omega
    | ⟨1, _⟩ => show ρ.val = 0 + ρ.val; omega
    | ⟨2, _⟩ => show kk.val = k + 0; omega

/-- A coordinate plane as a column `[n, p, 1]`, at `(b, ρ, u)`. -/
theorem planeColumn_apply {n p d : ℕ} (off : Fin 3 → ℕ) (k : ℕ) (hoff : off = ![0, 0, k]) (x : (⟨3, ![n, p, d]⟩ : Shape).Idx → α)
    (hs : (⟨3, ![n, p, d]⟩ : Shape).Slices off ⟨3, ![n, p, 1]⟩) (hc : (⟨3, ![n, p, 1]⟩ : Shape).ShapeCasts ⟨2, ![n, p]⟩)
    (hb : (⟨2, ![n, p]⟩ : Shape).BroadcastsInDim ⟨3, ![n, p, 1]⟩ (![0, 1] : Fin 2 → Fin 3))
    (b : Fin n) (ρ : Fin p) (u : Fin 1) (kk : Fin d) (hk : kk.val = k) :
    broadcastInDim ⟨3, ![n, p, 1]⟩ (![0, 1] : Fin 2 → Fin 3) hb
        (shapeCast ⟨2, ![n, p]⟩ (extractStridedSlice ⟨3, ![n, p, 1]⟩ off x hs) hc) (ix3 b ρ u) = x (ix3 b ρ kk) := by
  refine (broadcastInDim_apply _ hb _ (ix3 b ρ u) (ix2 b ρ) fun a => ?_).trans (plane_apply off k hoff x hs hc b ρ kk hk)
  match a with
  | ⟨0, _⟩ =>
    show b.val = if n = 1 then 0 else b.val
    split
    · have := b.isLt; omega
    · rfl
  | ⟨1, _⟩ =>
    show ρ.val = if p = 1 then 0 else ρ.val
    split
    · have := ρ.isLt; omega
    · rfl

/-- A coordinate plane as a row `[n, 1, p]`, at `(b, u, ρ)`. -/
theorem planeRow_apply {n p d : ℕ} (off : Fin 3 → ℕ) (k : ℕ) (hoff : off = ![0, 0, k]) (x : (⟨3, ![n, p, d]⟩ : Shape).Idx → α)
    (hs : (⟨3, ![n, p, d]⟩ : Shape).Slices off ⟨3, ![n, p, 1]⟩) (hc : (⟨3, ![n, p, 1]⟩ : Shape).ShapeCasts ⟨2, ![n, p]⟩)
    (hb : (⟨2, ![n, p]⟩ : Shape).BroadcastsInDim ⟨3, ![n, 1, p]⟩ (![0, 2] : Fin 2 → Fin 3))
    (b : Fin n) (u : Fin 1) (ρ : Fin p) (kk : Fin d) (hk : kk.val = k) :
    broadcastInDim ⟨3, ![n, 1, p]⟩ (![0, 2] : Fin 2 → Fin 3) hb
        (shapeCast ⟨2, ![n, p]⟩ (extractStridedSlice ⟨3, ![n, p, 1]⟩ off x hs) hc) (ix3 b u ρ) = x (ix3 b ρ kk) := by
  refine (broadcastInDim_apply _ hb _ (ix3 b u ρ) (ix2 b ρ) fun a => ?_).trans (plane_apply off k hoff x hs hc b ρ kk hk)
  match a with
  | ⟨0, _⟩ =>
    show b.val = if n = 1 then 0 else b.val
    split
    · have := b.isLt; omega
    · rfl
  | ⟨1, _⟩ =>
    show ρ.val = if p = 1 then 0 else ρ.val
    split
    · have := ρ.isLt; omega
    · rfl

/-- A column `[n, p, 1]` flattened to `[n, p]`, at `(b, ρ)`. -/
theorem columnFlat_apply {n p : ℕ} (z : (⟨3, ![n, p, 1]⟩ : Shape).Idx → α) (h : (⟨3, ![n, p, 1]⟩ : Shape).ShapeCasts ⟨2, ![n, p]⟩)
    (b : Fin n) (ρ : Fin p) : shapeCast ⟨2, ![n, p]⟩ z h (ix2 b ρ) = z (ix3 b ρ (0 : Fin 1)) :=
  shapeCast_apply z h _ _ (by
    rw [Shape.rowMajor_val_three, Shape.rowMajor_val_two]
    show (b.val * p + ρ.val) * 1 + 0 = b.val * p + ρ.val
    omega)

/-- A row `[n, 1, p]` flattened to `[n, p]`, at `(b, ρ)`. -/
theorem rowFlat_apply {n p : ℕ} (z : (⟨3, ![n, 1, p]⟩ : Shape).Idx → α) (h : (⟨3, ![n, 1, p]⟩ : Shape).ShapeCasts ⟨2, ![n, p]⟩)
    (b : Fin n) (ρ : Fin p) : shapeCast ⟨2, ![n, p]⟩ z h (ix2 b ρ) = z (ix3 b (0 : Fin 1) ρ) :=
  shapeCast_apply z h _ _ (by
    rw [Shape.rowMajor_val_three, Shape.rowMajor_val_two]
    show (b.val * 1 + 0) * p + ρ.val = b.val * p + ρ.val
    rw [Nat.mul_one, Nat.add_zero])

end Cert.Lib.CoordPlane

end
-- ==== Proof.Blocks.lean ====
/-
  Where the kernel's blocks sit in the argument arrays.

  The grid runs over 8 batches, 2 row tiles of 2048 points of the first set and 4 lane tiles of 1024 points of the second,
  the lane tile fastest: grid position t is batch t / 8, row tile t / 4 mod 2, lane tile t mod 4. Before the kernel the
  host splits each point set into its two coordinate planes, the first set's as columns and the second set's as rows; so
  the block a window hands the body at position t is a run of one coordinate of one argument: entry r of the row tile's
  block of plane k is coordinate k of point (t / 4 mod 2) · 2048 + r of the first set in batch t / 8, and entry c of the
  lane tile's block of plane k is coordinate k of point (t mod 4) · 1024 + c of the second set.
-/
import proofs.«155650_j8254927143419_2_alg».proof.Proof.Gen.KernelIdeal.Frame
import proofs.«155650_j8254927143419_2_alg».proof.Proof.LibCoordPlane
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Lib.CoordPlane

variable {F : FTy → Type} [FloatOps F]
variable (m : (ℓ : Loc nD τ sig) → Buf (Elt F) ℓ)

/-- The windows' block indices and the lane-tile coordinate at every grid position, in closed form. -/
theorem idx_facts : ∀ t : Fin cfg0.N,
    (win0_0.index t (0 : Fin 3) = t.val / 8 ∧ win0_0.index t (1 : Fin 3) = t.val / 4 % 2 ∧ win0_0.index t (2 : Fin 3) = 0)
    ∧ (win0_1.index t (0 : Fin 3) = t.val / 8 ∧ win0_1.index t (1 : Fin 3) = t.val / 4 % 2 ∧ win0_1.index t (2 : Fin 3) = 0)
    ∧ (win0_2.index t (0 : Fin 3) = t.val / 8 ∧ win0_2.index t (1 : Fin 3) = 0 ∧ win0_2.index t (2 : Fin 3) = t.val % 4)
    ∧ (win0_3.index t (0 : Fin 3) = t.val / 8 ∧ win0_3.index t (1 : Fin 3) = 0 ∧ win0_3.index t (2 : Fin 3) = t.val % 4)
    ∧ (win0_4.index t (0 : Fin 3) = t.val / 8 ∧ win0_4.index t (1 : Fin 3) = t.val / 4 % 2 ∧ win0_4.index t (2 : Fin 3) = 0)
    ∧ (win0_5.index t (0 : Fin 3) = t.val / 8 ∧ win0_5.index t (1 : Fin 3) = 0 ∧ win0_5.index t (2 : Fin 3) = 0)
    ∧ (grid0.coords t (2 : Fin 3)).val = t.val % 4 :=
  (by decide +kernel : ∀ t : Fin grid0.N, _)

theorem lt64 (t : Fin cfg0.N) : t.val < 64 := lt_of_lt_of_eq t.isLt (show cfg0.N = 64 from N_0)

/-- The batch, the first point of the row tile, the first point of the lane tile at a position. -/
abbrev batch (t : Fin cfg0.N) : Fin 8 := ⟨t.val / 8, by have := lt64 t; omega⟩
abbrev rowPt (t : Fin cfg0.N) (r : Fin 2048) : Fin 4096 := ⟨t.val / 4 % 2 * 2048 + r.val, by have := r.isLt; omega⟩
abbrev lanePt (t : Fin cfg0.N) (cc : Fin 1024) : Fin 4096 := ⟨t.val % 4 * 1024 + cc.val, by have := cc.isLt; omega⟩

/-- The lane offset of the second accumulator's slice at a position. -/
theorem off_at (t : Fin cfg0.N) : k0_off1 (grid0.coords t) = ![0, 1024 * (t.val % 4)] := by
  rw [k0_off1_eq, (idx_facts t).2.2.2.2.2.2]

/-! ## The arrays the region finds -/

theorem V_x0 (c : Dev nD) : (V m c main_v2 : S8x4096x1.Idx → F .f32)
    = broadcastInDim S8x4096x1 ![0, 1] bcast_S8x4096_S8x4096x1_0_1 (shapeCast S8x4096 (extractStridedSlice S8x4096x1 ![0, 0, 0] (m ((c : Thread nD τ).loc main_arg0)) slices_S8x4096x2_S8x4096x1_0_0_0) shapeCasts_S8x4096x1_S8x4096) := by
  show StableHlo.after hostOps0 (fun b => m (c, b)) (Proc.devRef .tc main_v2) = _
  after_results
  rfl

theorem V_x1 (c : Dev nD) : (V m c main_v5 : S8x4096x1.Idx → F .f32)
    = broadcastInDim S8x4096x1 ![0, 1] bcast_S8x4096_S8x4096x1_0_1 (shapeCast S8x4096 (extractStridedSlice S8x4096x1 ![0, 0, 1] (m ((c : Thread nD τ).loc main_arg0)) slices_S8x4096x2_S8x4096x1_0_0_1) shapeCasts_S8x4096x1_S8x4096) := by
  show StableHlo.after hostOps0 (fun b => m (c, b)) (Proc.devRef .tc main_v5) = _
  after_results
  rfl

theorem V_y0 (c : Dev nD) : (V m c main_v8 : S8x1x4096.Idx → F .f32)
    = broadcastInDim S8x1x4096 ![0, 2] bcast_S8x4096_S8x1x4096_0_2 (shapeCast S8x4096 (extractStridedSlice S8x4096x1 ![0, 0, 0] (m ((c : Thread nD τ).loc main_arg1)) slices_S8x4096x2_S8x4096x1_0_0_0) shapeCasts_S8x4096x1_S8x4096) := by
  show StableHlo.after hostOps0 (fun b => m (c, b)) (Proc.devRef .tc main_v8) = _
  after_results
  rfl

theorem V_y1 (c : Dev nD) : (V m c main_v11 : S8x1x4096.Idx → F .f32)
    = broadcastInDim S8x1x4096 ![0, 2] bcast_S8x4096_S8x1x4096_0_2 (shapeCast S8x4096 (extractStridedSlice S8x4096x1 ![0, 0, 1] (m ((c : Thread nD τ).loc main_arg1)) slices_S8x4096x2_S8x4096x1_0_0_1) shapeCasts_S8x4096x1_S8x4096) := by
  show StableHlo.after hostOps0 (fun b => m (c, b)) (Proc.devRef .tc main_v11) = _
  after_results
  rfl

/-- The two argument arrays. -/
abbrev setA (c : Dev nD) : S8x4096x2.Idx → F .f32 := m ((c : Thread nD τ).loc main_arg0)
abbrev setB (c : Dev nD) : S8x4096x2.Idx → F .f32 := m ((c : Thread nD τ).loc main_arg1)

/-! ## The blocks -/

/-- Entry r of the row tile's block of coordinate plane 0. -/
theorem blk0_apply (c : Dev nD) (t : Fin cfg0.N) (r : Fin 2048) :
    iblk m c 0 t (ix3 (0 : Fin 1) r (0 : Fin 1)) = setA m c (ix3 (batch t) (rowPt t r) (0 : Fin 2)) := by
  obtain ⟨⟨h0, h1, h2⟩, -⟩ := idx_facts t
  have e : iblk m c 0 t (ix3 (0 : Fin 1) r (0 : Fin 1)) = V m c main_v2 (ix3 (batch t) (rowPt t r) (0 : Fin 1)) := by
    unfold iblk
    rw [View.read_apply]
    show V m c main_v2 _ = V m c main_v2 _
    refine congrArg (V m c main_v2) (funext fun a => Fin.ext ?_)
    match a with
    | ⟨0, _⟩ => show win0_0.index t (0 : Fin 3) * 1 + 1 * 0 = t.val / 8; rw [h0]; omega
    | ⟨1, _⟩ => show win0_0.index t (1 : Fin 3) * 2048 + 1 * r.val = t.val / 4 % 2 * 2048 + r.val; rw [h1]; omega
    | ⟨2, _⟩ => show win0_0.index t (2 : Fin 3) * 1 + 1 * 0 = 0; rw [h2]
  rw [e, V_x0]
  exact planeColumn_apply _ 0 rfl _ _ _ _ (batch t) (rowPt t r) (0 : Fin 1) (0 : Fin 2) rfl

/-- Entry r of the row tile's block of coordinate plane 1. -/
theorem blk1_apply (c : Dev nD) (t : Fin cfg0.N) (r : Fin 2048) :
    iblk m c 1 t (ix3 (0 : Fin 1) r (0 : Fin 1)) = setA m c (ix3 (batch t) (rowPt t r) (1 : Fin 2)) := by
  obtain ⟨-, ⟨h0, h1, h2⟩, -⟩ := idx_facts t
  have e : iblk m c 1 t (ix3 (0 : Fin 1) r (0 : Fin 1)) = V m c main_v5 (ix3 (batch t) (rowPt t r) (0 : Fin 1)) := by
    unfold iblk
    rw [View.read_apply]
    show V m c main_v5 _ = V m c main_v5 _
    refine congrArg (V m c main_v5) (funext fun a => Fin.ext ?_)
    match a with
    | ⟨0, _⟩ => show win0_1.index t (0 : Fin 3) * 1 + 1 * 0 = t.val / 8; rw [h0]; omega
    | ⟨1, _⟩ => show win0_1.index t (1 : Fin 3) * 2048 + 1 * r.val = t.val / 4 % 2 * 2048 + r.val; rw [h1]; omega
    | ⟨2, _⟩ => show win0_1.index t (2 : Fin 3) * 1 + 1 * 0 = 0; rw [h2]
  rw [e, V_x1]
  exact planeColumn_apply _ 1 rfl _ _ _ _ (batch t) (rowPt t r) (0 : Fin 1) (1 : Fin 2) rfl

/-- Entry c of the lane tile's block of coordinate plane 0. -/
theorem blk2_apply (c : Dev nD) (t : Fin cfg0.N) (cc : Fin 1024) :
    iblk m c 2 t (ix3 (0 : Fin 1) (0 : Fin 1) cc) = setB m c (ix3 (batch t) (lanePt t cc) (0 : Fin 2)) := by
  obtain ⟨-, -, ⟨h0, h1, h2⟩, -⟩ := idx_facts t
  have e : iblk m c 2 t (ix3 (0 : Fin 1) (0 : Fin 1) cc) = V m c main_v8 (ix3 (batch t) (0 : Fin 1) (lanePt t cc)) := by
    unfold iblk
    rw [View.read_apply]
    show V m c main_v8 _ = V m c main_v8 _
    refine congrArg (V m c main_v8) (funext fun a => Fin.ext ?_)
    match a with
    | ⟨0, _⟩ => show win0_2.index t (0 : Fin 3) * 1 + 1 * 0 = t.val / 8; rw [h0]; omega
    | ⟨1, _⟩ => show win0_2.index t (1 : Fin 3) * 1 + 1 * 0 = 0; rw [h1]
    | ⟨2, _⟩ => show win0_2.index t (2 : Fin 3) * 1024 + 1 * cc.val = t.val % 4 * 1024 + cc.val; rw [h2]; omega
  rw [e, V_y0]
  exact planeRow_apply _ 0 rfl _ _ _ _ (batch t) (0 : Fin 1) (lanePt t cc) (0 : Fin 2) rfl

/-- Entry c of the lane tile's block of coordinate plane 1. -/
theorem blk3_apply (c : Dev nD) (t : Fin cfg0.N) (cc : Fin 1024) :
    iblk m c 3 t (ix3 (0 : Fin 1) (0 : Fin 1) cc) = setB m c (ix3 (batch t) (lanePt t cc) (1 : Fin 2)) := by
  obtain ⟨-, -, -, ⟨h0, h1, h2⟩, -⟩ := idx_facts t
  have e : iblk m c 3 t (ix3 (0 : Fin 1) (0 : Fin 1) cc) = V m c main_v11 (ix3 (batch t) (0 : Fin 1) (lanePt t cc)) := by
    unfold iblk
    rw [View.read_apply]
    show V m c main_v11 _ = V m c main_v11 _
    refine congrArg (V m c main_v11) (funext fun a => Fin.ext ?_)
    match a with
    | ⟨0, _⟩ => show win0_3.index t (0 : Fin 3) * 1 + 1 * 0 = t.val / 8; rw [h0]; omega
    | ⟨1, _⟩ => show win0_3.index t (1 : Fin 3) * 1 + 1 * 0 = 0; rw [h1]
    | ⟨2, _⟩ => show win0_3.index t (2 : Fin 3) * 1024 + 1 * cc.val = t.val % 4 * 1024 + cc.val; rw [h2]; omega
  rw [e, V_y1]
  exact planeRow_apply _ 1 rfl _ _ _ _ (batch t) (0 : Fin 1) (lanePt t cc) (1 : Fin 2) rfl

end Cert.KernelIdeal.Blocks

end
-- ==== Proof.LibKeepdimsMin.lean ====
/-
  General reading lemmas for keepdims layouts and one-axis reductions at the ideal values, over any extents.

  * Casts that only add unit axes read the operand at the same coordinate: `[a] → [a, 1]`, `[a] → [1, a, 1]`.
  * A column `[a, 1]` broadcast along its unit axis to `[a, b]` reads, at `(p, c)`, the column at `p`.
  * The sum over the three lanes of an `[n, 3]` array at row `r` is the `Fin 3`-indexed sum of that row.
  * A `minimumf` reduction over ONE axis is, at each result index, the fold of `min` from the accumulator's value over
    that axis's coordinates (the counterpart of the library's statement for `maximumf`); for an `[a, b]` table from +∞:
    the minimum over the columns at a row, and the minimum over the rows at a column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.KeepdimsMin

open Idealize.ShloMosaic Idealize.ShloMosaic.ValueIdx

/-! ## Layout operations at coordinates -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, a, 1]` reads, at `(u, i, w)`, the operand at `i`. -/
theorem shapeCast_a_1a1_apply {a : ℕ} (x : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis at coordinates -/

/-- The sum over the three lanes of an `[n, 3]` array, at row `r`. -/
theorem laneSum_apply {n : ℕ} (src : FVec Ideal ⟨2, ![n, 3]⟩ .f32) (h : (⟨2, ![n, 3]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ src 0x00000000#32 h hφ hacc (ix1 r) = ∑ k : Fin 3, src (ix2 r k) := by
  refine (Ideal.multiReduction_add_single src _ h hφ hacc (ix1 r)).trans ?_
  refine Finset.sum_congr rfl fun k _ => congrArg src ?_
  funext c
  match c with
  | ⟨0, _⟩ => rfl
  | ⟨1, _⟩ => rfl

/-- A `minimumf` reduction over one axis: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the columns of an `[a, b]` table, at row `r`. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction (F := Ideal) .minimumf [1] ⟨1, ![a]⟩ src 0x7F800000#32 h hφ hacc (ix1 r)
      = (Finset.univ : Finset (Fin b)).fold min (Ideal.ofBits .f32 0x7F800000#32) (fun c => src (ix2 r c)) := by
  refine (multiReduction_minimumf_single src _ h hφ hacc (ix1 r)).trans ?_
  refine congrArg (Finset.fold min _ · Finset.univ) (funext fun c => congrArg src ?_)
  funext d
  match d with
  | ⟨0, _⟩ => rfl
  | ⟨1, _⟩ => rfl

/-- The minimum over the rows of an `[a, b]` table, at column `c`. -/
theorem colMin_apply {a b : ℕ} (src : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (c : Fin b) :
    multiReduction (F := Ideal) .minimumf [0] ⟨1, ![b]⟩ src 0x7F800000#32 h hφ hacc (ix1 c)
      = (Finset.univ : Finset (Fin a)).fold min (Ideal.ofBits .f32 0x7F800000#32) (fun r => src (ix2 r c)) := by
  refine (multiReduction_minimumf_single src _ h hφ hacc (ix1 c)).trans ?_
  refine congrArg (Finset.fold min _ · Finset.univ) (funext fun r => congrArg src ?_)
  funext d
  match d with
  | ⟨0, _⟩ => rfl
  | ⟨1, _⟩ => rfl

end Cert.Lib.KeepdimsMin

end
-- ==== Proof.MinLaws.lean ====
/-
  Order facts on the extended reals behind a nearest-neighbour distance.

  * The ideal square root (√x on 0 ≤ x, +∞ at +∞, −∞ below zero) is monotone, so it commutes with finite minima, the
    empty minimum +∞ included: the minimum of the distances is the root of the minimum of the squared distances.
  * The f32 word 0x7F800000 denotes +∞, and a fold of `min` from +∞ over a finite set is the set's infimum.
  * The infimum over the indices below `a + k` is the smaller of the infimum over the indices below `a` and the
    infimum over the next `k`: a running minimum taken tile by tile reaches the minimum over the whole axis.
-/
import Idealize.ShloMosaic.PureOps.Ideal

namespace Cert.MinLaws

open Idealize.ShloMosaic

/-- The f32 word 0x7F800000 denotes +∞. -/
theorem inf_word : Ideal.ofBits .f32 0x7F800000#32 = (⊤ : EReal) := by
  simp [Ideal.ofBits, Ideal.ieee]

/-- The ideal square root is monotone on the whole extended line. -/
theorem sqrt_mono : Monotone Ideal.sqrt := by
  intro x y h
  induction x using EReal.rec with
  | bot => exact bot_le
  | top =>
    have hy : y = ⊤ := top_le_iff.mp h
    subst hy; exact le_rfl
  | coe a =>
    induction y using EReal.rec with
    | bot => exact absurd h (by simp)
    | top => exact le_top
    | coe b =>
      have hab : a ≤ b := EReal.coe_le_coe_iff.mp h
      rw [Ideal.sqrt_coe, Ideal.sqrt_coe]
      by_cases ha : a < 0
      · rw [if_pos ha]; exact bot_le
      · have hb : ¬ b < 0 := fun hb => ha (lt_of_le_of_lt hab hb)
        rw [if_neg ha, if_neg hb]
        exact EReal.coe_le_coe_iff.mpr (Real.sqrt_le_sqrt hab)

/-- The root of a finite infimum is the infimum of the roots. -/
theorem sqrt_inf {ι : Type*} (s : Finset ι) (f : ι → EReal) :
    Ideal.sqrt (s.inf f) = s.inf fun c => Ideal.sqrt (f c) :=
  Finset.comp_inf_eq_inf_comp Ideal.sqrt (fun x y => sqrt_mono.map_min) Ideal.sqrt_top

/-- A fold of `min` from +∞ is the infimum. -/
theorem fold_min_top {ι : Type*} (s : Finset ι) (f : ι → EReal) : s.fold min ⊤ f = s.inf f := by
  classical
  induction s using Finset.induction_on with
  | empty => rfl
  | insert a s ha ih => rw [Finset.fold_insert ha, Finset.inf_insert, ih]

/-- The indices below a bound. -/
abbrev below (N n : ℕ) : Finset (Fin N) := Finset.univ.filter fun c => c.val < n

theorem below_zero (N : ℕ) (f : Fin N → EReal) : (below N 0).inf f = ⊤ := by
  have : below N 0 = ∅ := Finset.filter_false_of_mem fun c _ => Nat.not_lt_zero _
  rw [this, Finset.inf_empty]

theorem below_all (N n : ℕ) (h : N ≤ n) (f : Fin N → EReal) : (below N n).inf f = Finset.univ.inf f := by
  have : below N n = Finset.univ := Finset.filter_true_of_mem fun c _ => lt_of_lt_of_le c.isLt h
  rw [this]

/-- A running minimum extended by the next `k` indices. -/
theorem below_add {N : ℕ} (f : Fin N → EReal) (a k : ℕ) (h : a + k ≤ N) :
    (below N (a + k)).inf f
      = min ((below N a).inf f) ((Finset.univ : Finset (Fin k)).inf fun c => f ⟨a + c.val, by have := c.isLt; omega⟩) := by
  apply le_antisymm
  · apply le_min
    · refine Finset.inf_mono fun c hc => ?_
      have := (Finset.mem_filter.mp hc).2
      exact Finset.mem_filter.mpr ⟨Finset.mem_univ _, by omega⟩
    · refine Finset.le_inf fun c _ => Finset.inf_le (Finset.mem_filter.mpr ⟨Finset.mem_univ _, ?_⟩)
      have := c.isLt
      show a + c.val < a + k
      omega
  · refine Finset.le_inf fun c hc => ?_
    have hc' : c.val < a + k := (Finset.mem_filter.mp hc).2
    by_cases hca : c.val < a
    · exact (min_le_left _ _).trans (Finset.inf_le (Finset.mem_filter.mpr ⟨Finset.mem_univ _, hca⟩))
    · refine (min_le_right _ _).trans ?_
      have e : c = ⟨a + (⟨c.val - a, by omega⟩ : Fin k).val, by have := c.isLt; show a + (c.val - a) < N; omega⟩ :=
        Fin.ext (by show c.val = a + (c.val - a); omega)
      calc (Finset.univ : Finset (Fin k)).inf (fun c => f ⟨a + c.val, by have := c.isLt; omega⟩)
          ≤ f ⟨a + (⟨c.val - a, by omega⟩ : Fin k).val, by have := c.isLt; show a + (c.val - a) < N; omega⟩ :=
            Finset.inf_le (f := fun c : Fin k => f ⟨a + c.val, by have := c.isLt; omega⟩) (Finset.mem_univ (⟨c.val - a, by omega⟩ : Fin k))
        _ = f c := by rw [← e]

end Cert.MinLaws
-- ==== Proof.Spec.lean ====
/-
  The quantity both programs compute, over the extended reals.

  Two sets of 4096 plane points per batch, stored as `[8, 4096, 2]` arrays A and B. With D(ρ, γ) the squared distance of
  point ρ of A and point γ of B, the distance from ρ to its nearest neighbour in B is the root of the infimum over γ of
  D(ρ, γ), and the distance from γ to its nearest neighbour in A the root of the infimum over ρ; since the root is
  monotone these are the infima of the distances themselves.
-/
import proofs.«155650_j8254927143419_2_alg».proof.Proof.MinLaws
import Idealize.ShloMosaic.Lib.ValueIdx

noncomputable section

namespace Cert.Spec

open Idealize.ShloMosaic Idealize.ShloMosaic.ValueIdx Cert.MinLaws

/-- A batch of point sets: 8 batches of 4096 points of 2 coordinates. -/
abbrev Pts := (⟨3, ![8, 4096, 2]⟩ : Shape).Idx → EReal

/-- The squared distance of the plane points (a, c) and (b, d). -/
def sqDist (a b c d : EReal) : EReal := (a - b) * (a - b) + (c - d) * (c - d)

/-- The squared distance of point ρ of A and point γ of B in batch b. -/
def D (A B : Pts) (b : Fin 8) (ρ γ : Fin 4096) : EReal :=
  sqDist (A (ix3 b ρ (0 : Fin 2))) (B (ix3 b γ (0 : Fin 2))) (A (ix3 b ρ (1 : Fin 2))) (B (ix3 b γ (1 : Fin 2)))

/-- The distance from point ρ of A to its nearest neighbour in B. -/
def near1 (A B : Pts) (b : Fin 8) (ρ : Fin 4096) : EReal := Ideal.sqrt ((Finset.univ : Finset (Fin 4096)).inf fun γ => D A B b ρ γ)

/-- The distance from point γ of B to its nearest neighbour in A. -/
def near2 (A B : Pts) (b : Fin 8) (γ : Fin 4096) : EReal := Ideal.sqrt ((Finset.univ : Finset (Fin 4096)).inf fun ρ => D A B b ρ γ)

theorem near1_eq (A B : Pts) (b : Fin 8) (ρ : Fin 4096) :
    near1 A B b ρ = (Finset.univ : Finset (Fin 4096)).inf fun γ => Ideal.sqrt (D A B b ρ γ) := sqrt_inf _ _

theorem near2_eq (A B : Pts) (b : Fin 8) (γ : Fin 4096) :
    near2 A B b γ = (Finset.univ : Finset (Fin 4096)).inf fun ρ => Ideal.sqrt (D A B b ρ γ) := sqrt_inf _ _

end Cert.Spec

end
-- ==== Proof.PayAt.lean ====
/-
  The kernel body's arithmetic read at an entry, over the extended reals.

  With x the 2048 points of the row tile (two coordinate columns) and y the 1024 points of the lane tile (two coordinate
  rows), the tile of squared distances at (r, c) is (x₀ r − y₀ c)² + (x₁ r − y₁ c)²; the first accumulator's new value at
  row r is the smaller of its old value and the infimum of row r of the tile; the second's at lane c is the smaller of
  its old value and the infimum of column c; each output entry is the square root of the accumulator entry beside it;
  the word every restart stores denotes +∞.
-/
import proofs.«155650_j8254927143419_2_alg».proof.Proof.Gen.KernelIdeal.Skeleton
import proofs.«155650_j8254927143419_2_alg».proof.Proof.LibKeepdimsMin
import proofs.«155650_j8254927143419_2_alg».proof.Proof.Spec
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.PayAt

open Cert.KernelIdeal Cert.KernelIdeal.Gen Cert.Lib.KeepdimsMin Cert.MinLaws Cert.Spec

/-- A coordinate column of the row tile, spread along the lanes, at (r, c): the column's entry r. -/
theorem colSpread_apply (x : Vec Ideal S1x2048x1 .f32) (r : Fin 2048) (cc : Fin 1024) :
    broadcastTo S2048x1024 (shapeCast S2048x1 x shapeCasts_S1x2048x1_S2048x1) broadcasts_S2048x1_S2048x1024 (ix2 r cc)
      = x (ix3 (0 : Fin 1) r (0 : Fin 1)) :=
  (broadcastTo_a1_ab_apply _ _ r cc).trans (shapeCast_1ab_ab_apply x _ r (0 : Fin 1))

/-- A coordinate row of the lane tile, spread along the sublanes, at (r, c): the row's entry c. -/
theorem rowSpread_apply (y : Vec Ideal S1x1x1024 .f32) (r : Fin 2048) (cc : Fin 1024) :
    broadcastTo S2048x1024 (shapeCast S1x1024 y shapeCasts_S1x1x1024_S1x1024) broadcasts_S1x1024_S2048x1024 (ix2 r cc)
      = y (ix3 (0 : Fin 1) (0 : Fin 1) cc) :=
  (broadcastTo_1b_ab_apply _ _ r cc).trans (shapeCast_1ab_ab_apply y _ (0 : Fin 1) cc)

/-- The tile of squared distances at (r, c). -/
theorem tile_apply (x0 x1 : Vec Ideal S1x2048x1 .f32) (y0 y1 : Vec Ideal S1x1x1024 .f32) (r : Fin 2048) (cc : Fin 1024) :
    k0_pay6 (F := Ideal) x0 x1 y0 y1 (ix2 r cc)
      = sqDist (x0 (ix3 (0 : Fin 1) r (0 : Fin 1))) (y0 (ix3 (0 : Fin 1) (0 : Fin 1) cc)) (x1 (ix3 (0 : Fin 1) r (0 : Fin 1))) (y1 (ix3 (0 : Fin 1) (0 : Fin 1) cc)) := by
  unfold k0_pay6 sqDist
  show (broadcastTo S2048x1024 (shapeCast S2048x1 x0 shapeCasts_S1x2048x1_S2048x1) broadcasts_S2048x1_S2048x1024 (ix2 r cc)
        - broadcastTo S2048x1024 (shapeCast S1x1024 y0 shapeCasts_S1x1x1024_S1x1024) broadcasts_S1x1024_S2048x1024 (ix2 r cc))
      * (broadcastTo S2048x1024 (shapeCast S2048x1 x0 shapeCasts_S1x2048x1_S2048x1) broadcasts_S2048x1_S2048x1024 (ix2 r cc)
        - broadcastTo S2048x1024 (shapeCast S1x1024 y0 shapeCasts_S1x1x1024_S1x1024) broadcasts_S1x1024_S2048x1024 (ix2 r cc))
      + (broadcastTo S2048x1024 (shapeCast S2048x1 x1 shapeCasts_S1x2048x1_S2048x1) broadcasts_S2048x1_S2048x1024 (ix2 r cc)
        - broadcastTo S2048x1024 (shapeCast S1x1024 y1 shapeCasts_S1x1x1024_S1x1024) broadcasts_S1x1024_S2048x1024 (ix2 r cc))
      * (broadcastTo S2048x1024 (shapeCast S2048x1 x1 shapeCasts_S1x2048x1_S2048x1) broadcasts_S2048x1_S2048x1024 (ix2 r cc)
        - broadcastTo S2048x1024 (shapeCast S1x1024 y1 shapeCasts_S1x1x1024_S1x1024) broadcasts_S1x1024_S2048x1024 (ix2 r cc)) = _
  rw [colSpread_apply, colSpread_apply, rowSpread_apply, rowSpread_apply]

/-- The first accumulator's step at row r. -/
theorem rowStep_apply (C2 : FVec Ideal S2048x1024 .f32) (acc : Vec Ideal S2048x1 .f32) (r : Fin 2048) :
    minimumf acc (shapeCast S2048x1 (multiReduction (F := Ideal) .minimumf [1] S2048 C2 0x7F800000#32 reduces_S2048x1024_S2048 (.inl rfl) rfl) shapeCasts_S2048_S2048x1) (ix2 r (0 : Fin 1))
      = min (acc (ix2 r (0 : Fin 1))) ((Finset.univ : Finset (Fin 1024)).inf fun cc => C2 (ix2 r cc)) := by
  show min (acc (ix2 r (0 : Fin 1))) (shapeCast S2048x1 (multiReduction (F := Ideal) .minimumf [1] S2048 C2 0x7F800000#32 reduces_S2048x1024_S2048 (.inl rfl) rfl) shapeCasts_S2048_S2048x1 (ix2 r (0 : Fin 1))) = _
  refine congrArg (min (acc (ix2 r (0 : Fin 1)))) ?_
  refine (shapeCast_a_a1_apply _ shapeCasts_S2048_S2048x1 r (0 : Fin 1)).trans ?_
  refine (rowMin_apply C2 reduces_S2048x1024_S2048 (.inl rfl) rfl r).trans ?_
  rw [inf_word, fold_min_top]

theorem acc0_apply (x0 x1 : Vec Ideal S1x2048x1 .f32) (y0 y1 : Vec Ideal S1x1x1024 .f32) (acc : Vec Ideal S2048x1 .f32) (r : Fin 2048) :
    k0_pay7 (F := Ideal) x0 x1 y0 y1 acc (ix2 r (0 : Fin 1))
      = min (acc (ix2 r (0 : Fin 1))) ((Finset.univ : Finset (Fin 1024)).inf fun cc => k0_pay6 (F := Ideal) x0 x1 y0 y1 (ix2 r cc)) := by
  unfold k0_pay7
  try dsimp only
  rw [shapeCast_self]
  exact rowStep_apply _ acc r

/-- The second accumulator's step at lane c. -/
theorem acc1_apply (C2 : FVec Ideal S2048x1024 .f32) (cur : Vec Ideal S1x1024 .f32) (cc : Fin 1024) :
    k0_pay1 (F := Ideal) C2 cur (ix2 (0 : Fin 1) cc)
      = min (cur (ix2 (0 : Fin 1) cc)) ((Finset.univ : Finset (Fin 2048)).inf fun r => C2 (ix2 r cc)) := by
  unfold k0_pay1
  try dsimp only
  rw [shapeCast_self]
  show min (cur (ix2 (0 : Fin 1) cc)) (shapeCast S1x1024 (multiReduction (F := Ideal) .minimumf [0] S1024 C2 0x7F800000#32 reduces_S2048x1024_S1024 (.inl rfl) rfl) shapeCasts_S1024_S1x1024 (ix2 (0 : Fin 1) cc)) = _
  refine congrArg (min (cur (ix2 (0 : Fin 1) cc))) ?_
  refine (shapeCast_a_1a_apply _ shapeCasts_S1024_S1x1024 (0 : Fin 1) cc).trans ?_
  refine (colMin_apply C2 reduces_S2048x1024_S1024 (.inl rfl) rfl cc).trans ?_
  rw [inf_word, fold_min_top]

/-- The first output block at row r: the root of the first accumulator there. -/
theorem out4_apply (s : Vec Ideal S2048x1 .f32) (r : Fin 2048) :
    k0_pay2 (F := Ideal) s (ix3 (0 : Fin 1) r (0 : Fin 1)) = Ideal.sqrt (s (ix2 r (0 : Fin 1))) := by
  unfold k0_pay2
  try dsimp only
  exact (shapeCast_ab_1ab_apply _ _ (0 : Fin 1) r (0 : Fin 1)).trans rfl

/-- The second output block at lane c: the root of the second accumulator there. -/
theorem out5_apply (s : Vec Ideal S1x4096 .f32) (cc : Fin 4096) :
    k0_pay3 (F := Ideal) s (ix3 (0 : Fin 1) (0 : Fin 1) cc) = Ideal.sqrt (s (ix2 (0 : Fin 1) cc)) := by
  unfold k0_pay3
  try dsimp only
  exact (shapeCast_ab_1ab_apply _ _ (0 : Fin 1) (0 : Fin 1) cc).trans rfl

/-- A restart stores +∞ everywhere. -/
theorem restart0_apply (i : S2048x1.Idx) : k0_pay4 (F := Ideal) i = ⊤ := by
  unfold k0_pay4
  try dsimp only
  rw [shapeCast_self]
  exact inf_word

theorem restart1_apply (i : S1x4096.Idx) : k0_pay5 (F := Ideal) i = ⊤ := by
  unfold k0_pay5
  try dsimp only
  rw [shapeCast_self]
  exact inf_word

end Cert.KernelIdeal.PayAt

end
-- ==== Proof.Pieces.lean ====
/-
  What one grid step of the distance kernel leaves in its two running-minimum rows and its two output blocks, as values.

  The body keeps two accumulators across grid steps: a column of 2048 running minima over the lanes seen so far (one per
  point of the current row tile) and a row of 4096 running minima over the sublanes seen so far (one per point of the
  second set). A step folds the row minima of its 2048 × 1024 tile of squared distances into the first, folds the column
  minima of the tile into the 1024 lanes the tile owns of the second, and writes the square roots of both to the outputs.
  At the first lane tile the first accumulator restarts from +∞; at the first step of a batch both do. For each of the
  three control cases this file reads the stores the symbolic run found back as those values.
-/
import proofs.«155650_j8254927143419_2_alg».proof.Proof.Gen.KernelIdeal.Frame
import Idealize.ShloMosaic.Lib.Pipeline.Value
import Idealize.ShloMosaic.Lib.WritesUnit
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## Reading stores back -/

section Reading
variable {sig' : RefSig} {κ : Kind} {sp : Space} {S : Shape} {e : EltTy} {Val : EltTy → Type} [∀ e, Nonempty (Val e)]

/-- After a newest store of the whole buffer the buffer reads that store's value, whatever was stored before. -/
theorem read_writes_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

/-- A load of the whole buffer after a newest store of the whole buffer reads that store's value. -/
theorem readCov_whole (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons.mpr (Or.inl rfl), View.mem_set_unit_zero h inb y⟩),
    View.canon_cons_unit_zero h, View.ld_unit_zero h]

/-- A load of the whole buffer reads what the stores so far left. -/
theorem readCov_whole_rect (v : View sig' κ sp S e) {off : Fin S.rank → Nat} (h : off = fun _ => 0)
    (inb : ∀ a, off a + S.size a ≤ S.size a) (L : List (View.Piece Val S e)) :
    v.readCov L (Rect.unit off S.size inb).toLoadRect = v.read Val (v.writes Val v.junk L) := by
  subst h
  funext x
  show v.read Val (v.writes Val v.junk L) ((Rect.whole S).emb x) = _
  rw [Rect.emb_whole_apply]

end Reading

/-! ## The second accumulator's step -/

/-- The row of running minima after a step at grid point `i`: on the 1024 lanes the step's tile owns, the old value
    folded with the tile's column minimum; elsewhere the old value. -/
def tileStep (i : grid0.Coords) (prev : Vec F S1x4096 .f32) (C2 : FVec F S2048x1024 .f32) : Vec F S1x4096 .f32 := fun y =>
  if h : ∀ a, k0_off1 i a ≤ (y a).val ∧ (y a).val < k0_off1 i a + S1x1024.size a then
    k0_pay1 C2 (View.ld prev (Rect.unit (s := S1x4096) (k0_off1 i) S1x1024.size (k0_off1_inb i)))
      (Rect.unitLocal (s := S1x4096) (off := k0_off1 i) (size := S1x1024.size) y h)
  else prev y

/-- A newest store into the tile's lanes over contents that read `prev`. -/
theorem read_tile_store {sig' : RefSig} (v : View sig' .tc .vmem S1x4096 .f32) (f : v.ty.Contents (Elt F)) (L : List (View.Piece (Elt F) S1x4096 .f32))
    (i : grid0.Coords) (C2 : FVec F S2048x1024 .f32) (prev : Vec F S1x4096 .f32) (hprev : v.read (Elt F) (v.writes (Elt F) f L) = prev) (y : S1x4096.Idx) :
    v.read (Elt F) (v.writes (Elt F) f ((⟨Rect.unit (s := S1x4096) (k0_off1 i) S1x1024.size (k0_off1_inb i),
        k0_pay1 C2 (View.ld prev (Rect.unit (s := S1x4096) (k0_off1 i) S1x1024.size (k0_off1_inb i)))⟩ : View.Piece (Elt F) S1x4096 .f32) :: L)) y
      = tileStep i prev C2 y := by
  refine (View.read_writes_cons_unit v f (k0_off1_inb i) _ L y rfl).trans ?_
  rw [hprev]
  rfl

/-! ## Case A -/

/-- The first accumulator after a step of case A: +∞ folded with the tile's row minima. -/
theorem acc0_A (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : cond0_1 i)
    (x0 : Vec F S1x2048x1 .f32) (x1 : Vec F S1x2048x1 .f32) (x2 : Vec F S1x1x1024 .f32) (x3 : Vec F S1x1x1024 .f32) :
    sout0_A_0 c i arg3 harg3 arg4 harg4 arg5 harg5 arg6 harg6 arg7 harg7 arg8 harg8 arg9 harg9 arg10 harg10 hc0 hc1 x0 x1 x2 x3 = k0_pay7 x0 x1 x2 x3 k0_pay4 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [readCov_whole (S := S2048x1) _ hz2, View.readAt_eq_ld, harg3.read_unread, harg4.read_unread, harg5.read_unread, harg6.read_unread, View.ld_unit_zero (S := S1x2048x1) hz3, View.ld_unit_zero (S := S1x1x1024) hz3]

/-- The first output block after a step of case A: the roots of the first accumulator. -/
theorem out4_A (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : cond0_1 i)
    (x0 : Vec F S1x2048x1 .f32) (x1 : Vec F S1x2048x1 .f32) (x2 : Vec F S1x1x1024 .f32) (x3 : Vec F S1x1x1024 .f32) :
    out0_A_4 c i arg3 harg3 arg4 harg4 arg5 harg5 arg6 harg6 arg7 harg7 arg8 harg8 arg9 harg9 arg10 harg10 hc0 hc1 x0 x1 x2 x3 = k0_pay2 (k0_pay7 x0 x1 x2 x3 k0_pay4) := by
  unfold out0_A_4
  rw [View.read_writes_eq_canon _ _ _ (cover0_A_4 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x2048x1) hz3]
  simp only [readCov_whole (S := S2048x1) _ hz2, View.readAt_eq_ld, harg3.read_unread, harg4.read_unread, harg5.read_unread, harg6.read_unread, View.ld_unit_zero (S := S1x2048x1) hz3, View.ld_unit_zero (S := S1x1x1024) hz3]

/-- The second accumulator after a step of case A. -/
theorem acc1_A (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : cond0_1 i)
    (x0 : Vec F S1x2048x1 .f32) (x1 : Vec F S1x2048x1 .f32) (x2 : Vec F S1x1x1024 .f32) (x3 : Vec F S1x1x1024 .f32) :
    sout0_A_1 c i arg3 harg3 arg4 harg4 arg5 harg5 arg6 harg6 arg7 harg7 arg8 harg8 arg9 harg9 arg10 harg10 hc0 hc1 x0 x1 x2 x3 = tileStep i k0_pay5 (k0_pay6 x0 x1 x2 x3) := by
  funext y
  unfold sout0_A_1 kernelRun0_A
  dsimp only
  sl_unfold_words
  simp only [View.readAt_eq_ld, harg3.read_unread, harg4.read_unread, harg5.read_unread, harg6.read_unread, View.ld_unit_zero (S := S1x2048x1) hz3, View.ld_unit_zero (S := S1x1x1024) hz3, harg10.read_unread, read_writes_whole (S := S1x4096) _ _ hz2]
  exact read_tile_store _ _ _ i _ k0_pay5 (read_writes_whole (S := S1x4096) _ _ hz2 _ _ _) y

/-- The second output block after a step of case A: the roots of the second accumulator. -/
theorem out5_A (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : cond0_1 i)
    (x0 : Vec F S1x2048x1 .f32) (x1 : Vec F S1x2048x1 .f32) (x2 : Vec F S1x1x1024 .f32) (x3 : Vec F S1x1x1024 .f32) :
    out0_A_5 c i arg3 harg3 arg4 harg4 arg5 harg5 arg6 harg6 arg7 harg7 arg8 harg8 arg9 harg9 arg10 harg10 hc0 hc1 x0 x1 x2 x3 = k0_pay3 (tileStep i k0_pay5 (k0_pay6 x0 x1 x2 x3)) := by
  unfold out0_A_5
  rw [View.read_writes_eq_canon _ _ _ (cover0_A_5 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1x4096) hz3]
  refine congrArg k0_pay3 (funext fun y => ?_)
  simp only [readCov_whole_rect (S := S1x4096) _ hz2, View.readAt_eq_ld, harg3.read_unread, harg4.read_unread, harg5.read_unread, harg6.read_unread, View.ld_unit_zero (S := S1x2048x1) hz3, View.ld_unit_zero (S := S1x1x1024) hz3, harg10.read_unread, read_writes_whole (S := S1x4096) _ _ hz2, View.ld_unit_zero (S := S1x4096) hz2]
  exact read_tile_store _ _ _ i _ k0_pay5 (read_writes_whole (S := S1x4096) _ _ hz2 _ _ _) y

/-! ## Case B -/

/-- The first accumulator after a step of case B: the old column folded with the tile's row minima. -/
theorem acc0_B (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : ¬cond0_0 i) (hc1 : ¬cond0_1 i)
    (x0 : Vec F S1x2048x1 .f32) (x1 : Vec F S1x2048x1 .f32) (x2 : Vec F S1x1x1024 .f32) (x3 : Vec F S1x1x1024 .f32) (xs0 : Vec F S2048x1 .f32) (xs1 : Vec F S1x4096 .f32) :
    sout0_B_0 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_cons_unit_zero (S := S2048x1) hz2]
  simp only [readCov_whole (S := S2048x1) _ hz2, View.readAt_eq_ld, harg3.read_unread, harg4.read_unread, harg5.read_unread, harg6.read_unread, View.ld_unit_zero (S := S1x2048x1) hz3, View.ld_unit_zero (S := S1x1x1024) hz3, harg9.read_unread, View.ld_unit_zero (S := S2048x1) hz2]

/-- The first output block after a step of case B: the roots of the first accumulator. -/
theorem out4_B (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : ¬cond0_0 i) (hc1 : ¬cond0_1 i)
    (x0 : Vec F S1x2048x1 .f32) (x1 : Vec F S1x2048x1 .f32) (x2 : Vec F S1x1x1024 .f32) (x3 : Vec F S1x1x1024 .f32) (xs0 : Vec F S2048x1 .f32) (xs1 : Vec F S1x4096 .f32) :
    out0_B_4 c i arg3 harg3 arg4 harg4 arg5 harg5 arg6 harg6 arg7 harg7 arg8 harg8 arg9 harg9 arg10 harg10 hc0 hc1 x0 x1 x2 x3 xs0 xs1 = k0_pay2 (k0_pay7 x0 x1 x2 x3 xs0) := by
  unfold out0_B_4
  rw [View.read_writes_eq_canon _ _ _ (cover0_B_4 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_cons_unit_zero (S := S1x2048x1) hz3]
  simp only [readCov_whole (S := S2048x1) _ hz2, View.readAt_eq_ld, harg3.read_unread, harg4.read_unread, harg5.read_unread, harg6.read_unread, View.ld_unit_zero (S := S1x2048x1) hz3, View.ld_unit_zero (S := S1x1x1024) hz3, harg9.read_unread, View.ld_unit_zero (S := S2048x1) hz2]

/-- The second accumulator after a step of case B. -/
theorem acc1_B (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : ¬cond0_0 i) (hc1 : ¬cond0_1 i)
    (x0 : Vec F S1x2048x1 .f32) (x1 : Vec F S1x2048x1 .f32) (x2 : Vec F S1x1x1024 .f32) (x3 : Vec F S1x1x1024 .f32) (xs0 : Vec F S2048x1 .f32) (xs1 : Vec F S1x4096 .f32) :
    sout0_B_1 c i arg3 harg3 arg4 harg4 arg5 harg5 arg6 harg6 arg7 harg7 arg8 harg8 arg9 harg9 arg10 harg10 hc0 hc1 x0 x1 x2 x3 xs0 xs1 = tileStep i xs1 (k0_pay6 x0 x1 x2 x3) := by
  funext y
  unfold sout0_B_1 kernelRun0_B
  dsimp only
  sl_unfold_words
  simp only [View.readAt_eq_ld, harg3.read_unread, harg4.read_unread, harg5.read_unread, harg6.read_unread, View.ld_unit_zero (S := S1x2048x1) hz3, View.ld_unit_zero (S := S1x1x1024) hz3, harg10.read_unread]
  exact read_tile_store _ _ _ i _ xs1 (harg10.read_unread xs1) y

/-- The second output block after a step of case B: the roots of the second accumulator. -/
theorem out5_B (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : ¬cond0_0 i) (hc1 : ¬cond0_1 i)
    (x0 : Vec F S1x2048x1 .f32) (x1 : Vec F S1x2048x1 .f32) (x2 : Vec F S1x1x1024 .f32) (x3 : Vec F S1x1x1024 .f32) (xs0 : Vec F S2048x1 .f32) (xs1 : Vec F S1x4096 .f32) :
    out0_B_5 c i arg3 harg3 arg4 harg4 arg5 harg5 arg6 harg6 arg7 harg7 arg8 harg8 arg9 harg9 arg10 harg10 hc0 hc1 x0 x1 x2 x3 xs0 xs1 = k0_pay3 (tileStep i xs1 (k0_pay6 x0 x1 x2 x3)) := by
  unfold out0_B_5
  rw [View.read_writes_eq_canon _ _ _ (cover0_B_5 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_cons_unit_zero (S := S1x1x4096) hz3]
  refine congrArg k0_pay3 (funext fun y => ?_)
  simp only [View.readAt_eq_ld, harg3.read_unread, harg4.read_unread, harg5.read_unread, harg6.read_unread, View.ld_unit_zero (S := S1x2048x1) hz3, View.ld_unit_zero (S := S1x1x1024) hz3, harg10.read_unread, View.ld_unit_zero (S := S1x4096) hz2]
  exact read_tile_store _ _ _ i _ xs1 (harg10.read_unread xs1) y

/-! ## Case C -/

/-- The first accumulator after a step of case C: +∞ folded with the tile's row minima. -/
theorem acc0_C (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : ¬cond0_1 i)
    (x0 : Vec F S1x2048x1 .f32) (x1 : Vec F S1x2048x1 .f32) (x2 : Vec F S1x1x1024 .f32) (x3 : Vec F S1x1x1024 .f32) (xs1 : Vec F S1x4096 .f32) :
    sout0_C_0 c i arg3 harg3 arg4 harg4 arg5 harg5 arg6 harg6 arg7 harg7 arg8 harg8 arg9 harg9 arg10 harg10 hc0 hc1 x0 x1 x2 x3 xs1 = k0_pay7 x0 x1 x2 x3 k0_pay4 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs1)]
  unfold kernelRun0_C
  dsimp only
  sl_unfold_words
  rw [View.canon_cons_unit_zero (S := S2048x1) hz2]
  simp only [readCov_whole (S := S2048x1) _ hz2, View.readAt_eq_ld, harg3.read_unread, harg4.read_unread, harg5.read_unread, harg6.read_unread, View.ld_unit_zero (S := S1x2048x1) hz3, View.ld_unit_zero (S := S1x1x1024) hz3]

/-- The first output block after a step of case C: the roots of the first accumulator. -/
theorem out4_C (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : ¬cond0_1 i)
    (x0 : Vec F S1x2048x1 .f32) (x1 : Vec F S1x2048x1 .f32) (x2 : Vec F S1x1x1024 .f32) (x3 : Vec F S1x1x1024 .f32) (xs1 : Vec F S1x4096 .f32) :
    out0_C_4 c i arg3 harg3 arg4 harg4 arg5 harg5 arg6 harg6 arg7 harg7 arg8 harg8 arg9 harg9 arg10 harg10 hc0 hc1 x0 x1 x2 x3 xs1 = k0_pay2 (k0_pay7 x0 x1 x2 x3 k0_pay4) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs1)]
  unfold kernelRun0_C
  dsimp only
  sl_unfold_words
  rw [View.canon_cons_unit_zero (S := S1x2048x1) hz3]
  simp only [readCov_whole (S := S2048x1) _ hz2, View.readAt_eq_ld, harg3.read_unread, harg4.read_unread, harg5.read_unread, harg6.read_unread, View.ld_unit_zero (S := S1x2048x1) hz3, View.ld_unit_zero (S := S1x1x1024) hz3]

/-- The second accumulator after a step of case C. -/
theorem acc1_C (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : ¬cond0_1 i)
    (x0 : Vec F S1x2048x1 .f32) (x1 : Vec F S1x2048x1 .f32) (x2 : Vec F S1x1x1024 .f32) (x3 : Vec F S1x1x1024 .f32) (xs1 : Vec F S1x4096 .f32) :
    sout0_C_1 c i arg3 harg3 arg4 harg4 arg5 harg5 arg6 harg6 arg7 harg7 arg8 harg8 arg9 harg9 arg10 harg10 hc0 hc1 x0 x1 x2 x3 xs1 = tileStep i xs1 (k0_pay6 x0 x1 x2 x3) := by
  funext y
  unfold sout0_C_1 kernelRun0_C
  dsimp only
  sl_unfold_words
  simp only [View.readAt_eq_ld, harg3.read_unread, harg4.read_unread, harg5.read_unread, harg6.read_unread, View.ld_unit_zero (S := S1x2048x1) hz3, View.ld_unit_zero (S := S1x1x1024) hz3, harg10.read_unread]
  exact read_tile_store _ _ _ i _ xs1 (harg10.read_unread xs1) y

/-- The second output block after a step of case C: the roots of the second accumulator. -/
theorem out5_C (c : Dev nD) (i : grid0.Coords) (arg3 : Memref sig .tc .vmem S1x2048x1 .f32) (harg3 : arg3.IsWhole) (arg4 : Memref sig .tc .vmem S1x2048x1 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1 .f32) (harg7 : arg7.IsWhole) (arg8 : Memref sig .tc .vmem S1x1x4096 .f32) (harg8 : arg8.IsWhole) (arg9 : Memref sig .tc .vmem S2048x1 .f32) (harg9 : arg9.IsWhole) (arg10 : Memref sig .tc .vmem S1x4096 .f32) (harg10 : arg10.IsWhole) (hc0 : cond0_0 i) (hc1 : ¬cond0_1 i)
    (x0 : Vec F S1x2048x1 .f32) (x1 : Vec F S1x2048x1 .f32) (x2 : Vec F S1x1x1024 .f32) (x3 : Vec F S1x1x1024 .f32) (xs1 : Vec F S1x4096 .f32) :
    out0_C_5 c i arg3 harg3 arg4 harg4 arg5 harg5 arg6 harg6 arg7 harg7 arg8 harg8 arg9 harg9 arg10 harg10 hc0 hc1 x0 x1 x2 x3 xs1 = k0_pay3 (tileStep i xs1 (k0_pay6 x0 x1 x2 x3)) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 xs1)]
  unfold kernelRun0_C
  dsimp only
  sl_unfold_words
  rw [View.canon_cons_unit_zero (S := S1x1x4096) hz3]
  refine congrArg k0_pay3 (funext fun y => ?_)
  simp only [View.readAt_eq_ld, harg3.read_unread, harg4.read_unread, harg5.read_unread, harg6.read_unread, View.ld_unit_zero (S := S1x2048x1) hz3, View.ld_unit_zero (S := S1x1x1024) hz3, harg10.read_unread, View.ld_unit_zero (S := S1x4096) hz2]
  exact read_tile_store _ _ _ i _ xs1 (harg10.read_unread xs1) y

end Cert.KernelIdeal.Pieces

end
-- ==== Proof.Steps.lean ====
/-
  One grid step of the two running minima, entry by entry, over the extended reals.

  At grid position t the tile of squared distances pairs the 2048 points of A's row tile with the 1024 points of B's lane
  tile, all in batch t / 8. The first accumulator at row r becomes the smaller of its old value and the infimum, over the
  lane tile's points γ, of D(ρ, γ) for the row's point ρ; the second accumulator at a lane γ of the tile becomes the
  smaller of its old value and the infimum of D(ρ, γ) over the row tile's points ρ, and is unchanged at every other lane.
  Folding a tile's infimum into the infimum over all earlier points gives the infimum over all points up to the tile's end.
-/
import proofs.«155650_j8254927143419_2_alg».proof.Proof.Blocks
import proofs.«155650_j8254927143419_2_alg».proof.Proof.PayAt
import proofs.«155650_j8254927143419_2_alg».proof.Proof.Pieces

set_option maxRecDepth 16384

noncomputable section

open Idealize.ShloMosaic Idealize.ShloMosaic.TcCoe Idealize.SL.Sem Idealize.ShloMosaic.ValueIdx

namespace Cert.KernelIdeal.Steps

open Cert.KernelIdeal Cert.KernelIdeal.Gen Cert.KernelIdeal.Blocks Cert.KernelIdeal.PayAt Cert.KernelIdeal.Pieces Cert.Spec Cert.MinLaws

/-! ## Folding a tile into a running infimum -/

/-- Lane tile j folded into the infimum over the lanes before it. -/
theorem fold_lanes (f : Fin 4096 → EReal) (j : ℕ) (hj : j < 4) :
    min ((below 4096 (1024 * j)).inf f) ((Finset.univ : Finset (Fin 1024)).inf fun cc => f ⟨j * 1024 + cc.val, by have := cc.isLt; omega⟩)
      = (below 4096 (1024 * j + 1024)).inf f := by
  rw [below_add f (1024 * j) 1024 (by omega)]
  refine congrArg (min _) (congrArg (fun g => (Finset.univ : Finset (Fin 1024)).inf g) (funext fun cc => congrArg f (Fin.ext ?_)))
  show j * 1024 + cc.val = 1024 * j + cc.val
  omega

/-- Row tile i folded into the infimum over the rows before it. -/
theorem fold_rows (f : Fin 4096 → EReal) (i : ℕ) (hi : i < 2) :
    min ((below 4096 (2048 * i)).inf f) ((Finset.univ : Finset (Fin 2048)).inf fun r => f ⟨i * 2048 + r.val, by have := r.isLt; omega⟩)
      = (below 4096 (2048 * i + 2048)).inf f := by
  rw [below_add f (2048 * i) 2048 (by omega)]
  refine congrArg (min _) (congrArg (fun g => (Finset.univ : Finset (Fin 2048)).inf g) (funext fun r => congrArg f (Fin.ext ?_)))
  show i * 2048 + r.val = 2048 * i + r.val
  omega

variable (m : (ℓ : Loc nD τ sig) → Buf (Elt Ideal) ℓ)

/-! ## The tile and the two accumulators at a grid position -/

/-- The tile of squared distances at position t, entry (r, c). -/
theorem tile_at (c : Dev nD) (t : Fin cfg0.N) (r : Fin 2048) (cc : Fin 1024) :
    k0_pay6 (F := Ideal) (iblk m c 0 t) (iblk m c 1 t) (iblk m c 2 t) (iblk m c 3 t) (ix2 r cc)
      = D (setA m c) (setB m c) (batch t) (rowPt t r) (lanePt t cc) := by
  refine (tile_apply (iblk m c 0 t) (iblk m c 1 t) (iblk m c 2 t) (iblk m c 3 t) r cc).trans ?_
  rw [blk0_apply, blk1_apply, blk2_apply, blk3_apply]
  rfl

/-- The first accumulator after position t, at row r. -/
theorem acc0_at (c : Dev nD) (t : Fin cfg0.N) (prev0 : Vec Ideal S2048x1 .f32) (r : Fin 2048) :
    k0_pay7 (F := Ideal) (iblk m c 0 t) (iblk m c 1 t) (iblk m c 2 t) (iblk m c 3 t) prev0 (ix2 r (0 : Fin 1))
      = min (prev0 (ix2 r (0 : Fin 1)))
          ((Finset.univ : Finset (Fin 1024)).inf fun cc => D (setA m c) (setB m c) (batch t) (rowPt t r) (lanePt t cc)) := by
  refine (acc0_apply (iblk m c 0 t) (iblk m c 1 t) (iblk m c 2 t) (iblk m c 3 t) prev0 r).trans ?_
  exact congrArg (min _) (congrArg (fun g => (Finset.univ : Finset (Fin 1024)).inf g) (funext fun cc => tile_at m c t r cc))

/-- The second accumulator after position t, at a lane of the position's tile. -/
theorem acc1_in (c : Dev nD) (t : Fin cfg0.N) (prev1 : Vec Ideal S1x4096 .f32) (γ : Fin 4096) (cc : Fin 1024)
    (hγ : γ.val = 1024 * (t.val % 4) + cc.val) :
    tileStep (F := Ideal) (grid0.coords t) prev1 (k0_pay6 (iblk m c 0 t) (iblk m c 1 t) (iblk m c 2 t) (iblk m c 3 t)) (ix2 (0 : Fin 1) γ)
      = min (prev1 (ix2 (0 : Fin 1) γ))
          ((Finset.univ : Finset (Fin 2048)).inf fun r => D (setA m c) (setB m c) (batch t) (rowPt t r) γ) := by
  have hoff := off_at t
  have h : ∀ a, k0_off1 (grid0.coords t) a ≤ ((ix2 (0 : Fin 1) γ : S1x4096.Idx) a).val
      ∧ ((ix2 (0 : Fin 1) γ : S1x4096.Idx) a).val < k0_off1 (grid0.coords t) a + S1x1024.size a := by
    rw [hoff]
    intro a
    match a with
    | ⟨0, _⟩ => exact ⟨Nat.le_refl 0, Nat.one_pos⟩
    | ⟨1, _⟩ =>
      show 1024 * (t.val % 4) ≤ γ.val ∧ γ.val < 1024 * (t.val % 4) + 1024
      have := cc.isLt
      omega
  unfold tileStep
  rw [dif_pos h]
  have eL : Rect.unitLocal (s := S1x4096) (off := k0_off1 (grid0.coords t)) (size := S1x1024.size) (ix2 (0 : Fin 1) γ) h
      = (ix2 (0 : Fin 1) cc : S1x1024.Idx) := by
    funext a
    apply Fin.ext
    rw [Rect.unitLocal_val]
    match a with
    | ⟨0, _⟩ => rfl
    | ⟨1, _⟩ =>
      show γ.val - k0_off1 (grid0.coords t) ⟨1, by decide⟩ = cc.val
      rw [hoff]
      show γ.val - 1024 * (t.val % 4) = cc.val
      omega
  rw [eL]
  refine (acc1_apply _ _ cc).trans ?_
  have e1 : View.ld prev1 (Rect.unit (s := S1x4096) (k0_off1 (grid0.coords t)) S1x1024.size (k0_off1_inb (grid0.coords t))) (ix2 (0 : Fin 1) cc)
      = prev1 (ix2 (0 : Fin 1) γ) := by
    show prev1 _ = prev1 _
    refine congrArg prev1 (funext fun a => Fin.ext ?_)
    match a with
    | ⟨0, _⟩ =>
      show k0_off1 (grid0.coords t) ⟨0, by decide⟩ + 1 * 0 = 0
      rw [hoff]
      rfl
    | ⟨1, _⟩ =>
      show k0_off1 (grid0.coords t) ⟨1, by decide⟩ + 1 * cc.val = γ.val
      rw [hoff]
      show 1024 * (t.val % 4) + 1 * cc.val = γ.val
      omega
  have e2 : lanePt t cc = γ := Fin.ext (by show t.val % 4 * 1024 + cc.val = γ.val; omega)
  rw [e1]
  refine congrArg (min _) (congrArg (fun g => (Finset.univ : Finset (Fin 2048)).inf g) (funext fun r => ?_))
  rw [tile_at, e2]

/-- The second accumulator after position t, at a lane outside the position's tile: unchanged. -/
theorem acc1_out (t : Fin cfg0.N) (prev1 : Vec Ideal S1x4096 .f32) (C2 : FVec Ideal S2048x1024 .f32) (γ : Fin 4096)
    (hγ : γ.val < 1024 * (t.val % 4) ∨ 1024 * (t.val % 4) + 1024 ≤ γ.val) :
    tileStep (F := Ideal) (grid0.coords t) prev1 C2 (ix2 (0 : Fin 1) γ) = prev1 (ix2 (0 : Fin 1) γ) := by
  unfold tileStep
  rw [dif_neg]
  intro h
  have h1 := h ⟨1, by decide⟩
  rw [off_at t] at h1
  have h1' : 1024 * (t.val % 4) ≤ γ.val ∧ γ.val < 1024 * (t.val % 4) + 1024 := h1
  omega

end Cert.KernelIdeal.Steps

end
-- ==== Proof.Chain.lean ====
/-
  The two running minima after every grid position.

  After position t (batch b = t / 8, row tile t / 4 mod 2, lane tile t mod 4) the first accumulator holds, at row r, the
  infimum of D(ρ, γ) over the points γ of B in the lane tiles seen so far in this row tile's sweep, ρ the row's point; the
  second holds, at lane γ, the infimum of D(ρ, γ) over the points ρ of A in the row tiles whose sweep has already passed
  γ's lane tile. Both follow by induction on the position from the step equations: a restart puts +∞, the infimum over no
  points; a step folds one tile in. The outputs hold the square roots of the accumulators.
-/
import proofs.«155650_j8254927143419_2_alg».proof.Proof.Steps

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.KernelIdeal.Blocks Cert.KernelIdeal.PayAt Cert.KernelIdeal.Pieces Cert.KernelIdeal.Steps Cert.Spec Cert.MinLaws

/-! ## The step equations, at any float instance -/

section Equations
variable {F : FTy → Type} [FloatOps F]
variable (m : (ℓ : Loc nD τ sig) → Buf (Elt F) ℓ)

/-- At the first lane tile the first accumulator restarts. -/
theorem s0_reset (c : Dev nD) (t : Fin cfg0.N) (h0 : t.val % 4 = 0) :
    (outsAt0 m c t.val t.isLt).2.2.1 = k0_pay7 (iblk m c 0 t) (iblk m c 1 t) (iblk m c 2 t) (iblk m c 3 t) k0_pay4 := by
  by_cases h1 : t.val % 8 = 0
  · rw [outsAt0_A m c t h0 h1]
    dsimp only
    exact acc0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)
  · rw [outsAt0_C m c t h0 h1]
    dsimp only
    exact acc0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2

/-- At the other lane tiles it carries on from the position before. -/
theorem s0_carry (c : Dev nD) (t : Fin cfg0.N) (h0 : ¬t.val % 4 = 0) :
    (outsAt0 m c t.val t.isLt).2.2.1 = k0_pay7 (iblk m c 0 t) (iblk m c 1 t) (iblk m c 2 t) (iblk m c 3 t) (outsAt0 m c (t.val - 1) (Nat.lt_of_le_of_lt (Nat.sub_le _ _) t.isLt)).2.2.1 := by
  have h1 : ¬t.val % 8 = 0 := by omega
  rw [outsAt0_B m c t h0 h1]
  dsimp only
  exact acc0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a batch's first position the second accumulator restarts. -/
theorem s1_reset (c : Dev nD) (t : Fin cfg0.N) (h1 : t.val % 8 = 0) :
    (outsAt0 m c t.val t.isLt).2.2.2 = tileStep (grid0.coords t) k0_pay5 (k0_pay6 (iblk m c 0 t) (iblk m c 1 t) (iblk m c 2 t) (iblk m c 3 t)) := by
  have h0 : t.val % 4 = 0 := by omega
  rw [outsAt0_A m c t h0 h1]
  dsimp only
  exact acc1_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)

/-- At the other positions it carries on from the position before. -/
theorem s1_carry (c : Dev nD) (t : Fin cfg0.N) (h1 : ¬t.val % 8 = 0) :
    (outsAt0 m c t.val t.isLt).2.2.2 = tileStep (grid0.coords t) (outsAt0 m c (t.val - 1) (Nat.lt_of_le_of_lt (Nat.sub_le _ _) t.isLt)).2.2.2 (k0_pay6 (iblk m c 0 t) (iblk m c 1 t) (iblk m c 2 t) (iblk m c 3 t)) := by
  by_cases h0 : t.val % 4 = 0
  · rw [outsAt0_C m c t h0 h1]
    dsimp only
    exact acc1_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2
  · rw [outsAt0_B m c t h0 h1]
    dsimp only
    exact acc1_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first output block holds the roots of the first accumulator. -/
theorem o4 (c : Dev nD) (t : Fin cfg0.N) :
    (outsAt0 m c t.val t.isLt).1 = k0_pay2 (outsAt0 m c t.val t.isLt).2.2.1 := by
  by_cases h0 : t.val % 4 = 0
  · by_cases h1 : t.val % 8 = 0
    · rw [outsAt0_A m c t h0 h1]
      dsimp only
      exact (out4_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)).trans (congrArg k0_pay2 (acc0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)).symm)
    · rw [outsAt0_C m c t h0 h1]
      dsimp only
      exact (out4_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2).trans (congrArg k0_pay2 (acc0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2).symm)
  · have h1 : ¬t.val % 8 = 0 := by omega
    rw [outsAt0_B m c t h0 h1]
    dsimp only
    exact (out4_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (congrArg k0_pay2 (acc0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

/-- The second output block holds the roots of the second accumulator. -/
theorem o5 (c : Dev nD) (t : Fin cfg0.N) :
    (outsAt0 m c t.val t.isLt).2.1 = k0_pay3 (outsAt0 m c t.val t.isLt).2.2.2 := by
  by_cases h0 : t.val % 4 = 0
  · by_cases h1 : t.val % 8 = 0
    · rw [outsAt0_A m c t h0 h1]
      dsimp only
      exact (out5_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)).trans (congrArg k0_pay3 (acc1_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (iblk m c 0 t) (iblk m c 1 t) (iblk m c 2 t) (iblk m c 3 t)).symm)
    · rw [outsAt0_C m c t h0 h1]
      dsimp only
      exact (out5_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2).trans (congrArg k0_pay3 (acc1_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2).symm)
  · have h1 : ¬t.val % 8 = 0 := by omega
    rw [outsAt0_B m c t h0 h1]
    dsimp only
    exact (out5_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).trans (congrArg k0_pay3 (acc1_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

end Equations

/-! ## The invariant, over the extended reals -/

variable (m : (ℓ : Loc nD τ sig) → Buf (Elt Ideal) ℓ)

/-- How many points of A have been folded into lane γ after position n. -/
def rowsSeen (n γ : ℕ) : ℕ := 2048 * (n / 4 % 2 + if γ / 1024 ≤ n % 4 then 1 else 0)

/-- What the two accumulators hold after position n. -/
def Holds (c : Dev nD) (n : ℕ) (h : n < cfg0.N) : Prop :=
  (∀ r : Fin 2048, (outsAt0 m c n h).2.2.1 (ix2 r (0 : Fin 1))
      = (below 4096 (1024 * (n % 4) + 1024)).inf fun γ => D (setA m c) (setB m c) (batch ⟨n, h⟩) (rowPt ⟨n, h⟩ r) γ)
  ∧ (∀ γ : Fin 4096, (outsAt0 m c n h).2.2.2 (ix2 (0 : Fin 1) γ)
      = (below 4096 (rowsSeen n γ.val)).inf fun ρ => D (setA m c) (setB m c) (batch ⟨n, h⟩) ρ γ)

theorem holds_step (c : Dev nD) (t : Fin cfg0.N)
    (IH : t.val ≠ 0 → Holds m c (t.val - 1) (Nat.lt_of_le_of_lt (Nat.sub_le _ _) t.isLt)) : Holds m c t.val t.isLt := by
  have hN := lt64 t
  refine ⟨fun r => ?_, fun γ => ?_⟩
  · -- the first accumulator
    by_cases h0 : t.val % 4 = 0
    · rw [s0_reset m c t h0, acc0_at m c t _ r, restart0_apply]
      refine Eq.trans ?_ (fold_lanes (fun γ => D (setA m c) (setB m c) (batch t) (rowPt t r) γ) (t.val % 4) (by omega))
      refine congrArg₂ min ?_ rfl
      rw [h0, Nat.mul_zero, below_zero]
    · have hz : t.val ≠ 0 := fun e => h0 (by rw [e])
      have hI := (IH hz).1 r
      have eb : batch ⟨t.val - 1, Nat.lt_of_le_of_lt (Nat.sub_le _ _) t.isLt⟩ = batch t := Fin.ext (by show (t.val - 1) / 8 = t.val / 8; omega)
      have er : rowPt ⟨t.val - 1, Nat.lt_of_le_of_lt (Nat.sub_le _ _) t.isLt⟩ r = rowPt t r :=
        Fin.ext (by show (t.val - 1) / 4 % 2 * 2048 + r.val = t.val / 4 % 2 * 2048 + r.val; omega)
      have en : 1024 * ((t.val - 1) % 4) + 1024 = 1024 * (t.val % 4) := by omega
      rw [eb, er, en] at hI
      rw [s0_carry m c t h0, acc0_at m c t _ r, hI]
      exact fold_lanes (fun γ => D (setA m c) (setB m c) (batch t) (rowPt t r) γ) (t.val % 4) (by omega)
  · -- the second accumulator
    have hγ := γ.isLt
    -- what it held before the step, at this lane
    have hprev : ∀ prev1 : Vec Ideal S1x4096 .f32,
        (t.val % 8 = 0 → prev1 = k0_pay5 (F := Ideal)) →
        (¬t.val % 8 = 0 → prev1 = (outsAt0 m c (t.val - 1) (Nat.lt_of_le_of_lt (Nat.sub_le _ _) t.isLt)).2.2.2) →
        prev1 (ix2 (0 : Fin 1) γ)
          = (below 4096 (if γ.val / 1024 = t.val % 4 then 2048 * (t.val / 4 % 2) else rowsSeen t.val γ.val)).inf
              fun ρ => D (setA m c) (setB m c) (batch t) ρ γ := by
      intro prev1 hA hB
      by_cases h1 : t.val % 8 = 0
      · rw [hA h1, restart1_apply]
        have e0 : (if γ.val / 1024 = t.val % 4 then 2048 * (t.val / 4 % 2) else rowsSeen t.val γ.val) = 0 := by
          unfold rowsSeen
          split_ifs <;> omega
        rw [e0, below_zero]
      · have hz : t.val ≠ 0 := fun e => h1 (by rw [e])
        have hI := (IH hz).2 γ
        have eb : batch ⟨t.val - 1, Nat.lt_of_le_of_lt (Nat.sub_le _ _) t.isLt⟩ = batch t := Fin.ext (by show (t.val - 1) / 8 = t.val / 8; omega)
        have en : rowsSeen (t.val - 1) γ.val = (if γ.val / 1024 = t.val % 4 then 2048 * (t.val / 4 % 2) else rowsSeen t.val γ.val) := by
          unfold rowsSeen
          split_ifs <;> omega
        rw [eb, en] at hI
        rw [hB h1]
        exact hI
    by_cases hin : γ.val / 1024 = t.val % 4
    · -- a lane of this position's tile
      have hcc : γ.val - 1024 * (t.val % 4) < 1024 := by omega
      have hγ' : γ.val = 1024 * (t.val % 4) + (⟨γ.val - 1024 * (t.val % 4), hcc⟩ : Fin 1024).val := by
        show γ.val = 1024 * (t.val % 4) + (γ.val - 1024 * (t.val % 4)); omega
      have target : rowsSeen t.val γ.val = 2048 * (t.val / 4 % 2) + 2048 := by
        unfold rowsSeen
        rw [if_pos (by omega)]
        omega
      rw [target]
      refine Eq.trans ?_ (fold_rows (fun ρ => D (setA m c) (setB m c) (batch t) ρ γ) (t.val / 4 % 2) (by omega))
      by_cases h1 : t.val % 8 = 0
      · rw [s1_reset m c t h1, acc1_in m c t _ γ _ hγ', hprev _ (fun _ => rfl) (fun h => absurd h1 h), if_pos hin]
      · rw [s1_carry m c t h1, acc1_in m c t _ γ _ hγ', hprev _ (fun h => absurd h h1) (fun _ => rfl), if_pos hin]
    · -- a lane of another tile
      have hout : γ.val < 1024 * (t.val % 4) ∨ 1024 * (t.val % 4) + 1024 ≤ γ.val := by omega
      by_cases h1 : t.val % 8 = 0
      · rw [s1_reset m c t h1, acc1_out t _ _ γ hout, hprev _ (fun _ => rfl) (fun h => absurd h1 h), if_neg hin]
      · rw [s1_carry m c t h1, acc1_out t _ _ γ hout, hprev _ (fun h => absurd h h1) (fun _ => rfl), if_neg hin]

/-- The invariant holds after every position. -/
theorem holds (c : Dev nD) : ∀ (n : ℕ) (h : n < cfg0.N), Holds m c n h
  | 0, h => holds_step m c ⟨0, h⟩ fun hz => absurd rfl hz
  | n + 1, h => holds_step m c ⟨n + 1, h⟩ fun _ => holds c n (Nat.lt_of_succ_lt h)

/-! ## The output blocks at the positions that write them back -/

/-- After a row tile's last lane tile the first output block holds the nearest-neighbour distances of the tile's points. -/
theorem out4_at (c : Dev nD) (t : Fin cfg0.N) (h3 : t.val % 4 = 3) (r : Fin 2048) :
    (outsAt0 m c t.val t.isLt).1 (ix3 (0 : Fin 1) r (0 : Fin 1)) = near1 (setA m c) (setB m c) (batch t) (rowPt t r) := by
  rw [o4 m c t, out4_apply, (holds m c t.val t.isLt).1 r, below_all 4096 _ (by omega)]
  rfl

/-- After a batch's last position the second output block holds the nearest-neighbour distances of B's points. -/
theorem out5_at (c : Dev nD) (t : Fin cfg0.N) (h7 : t.val % 8 = 7) (γ : Fin 4096) :
    (outsAt0 m c t.val t.isLt).2.1 (ix3 (0 : Fin 1) (0 : Fin 1) γ) = near2 (setA m c) (setB m c) (batch t) γ := by
  have hγ := γ.isLt
  have e : rowsSeen t.val γ.val = 4096 := by
    unfold rowsSeen
    rw [if_pos (by omega)]
    omega
  rw [o5 m c t, out5_apply, (holds m c t.val t.isLt).2 γ, e, below_all 4096 _ (Nat.le_refl _)]
  rfl

end Cert.KernelIdeal.Chain

end
-- ==== Proof.Result.lean ====
/-
  The two programs' common result, as one term: the nearest-neighbour distances in both directions, averaged.

  Both programs end with the same host lines: each of the two `[8, 4096]` tables of nearest-neighbour distances is summed
  along its rows and divided by 4096, the two means are added, the sum is halved and multiplied by one. Those lines are
  kept as one definition, never opened: the programs agree because they feed it the same two tables.
-/
import proofs.«155650_j8254927143419_2_alg».proof.Proof.Spec
import Idealize.ShloMosaic.PureOps

noncomputable section

namespace Cert.Spec

open Idealize.ShloMosaic Idealize.ShloMosaic.ValueIdx

/-- The closing host lines, over any float instance. -/
def meanOfMeans {F : FTy → Type} [FloatOps F]
    (hred : (⟨2, ![8, 4096]⟩ : Shape).ReducesTo [1] ⟨1, ![8]⟩) (hS : 0 < (⟨0, ![]⟩ : Shape).numel)
    (hb : (⟨0, ![]⟩ : Shape).BroadcastsInDim ⟨1, ![8]⟩ (![] : Fin 0 → Fin 1))
    (u v : FVec F ⟨2, ![8, 4096]⟩ .f32) : FVec F ⟨1, ![8]⟩ .f32 :=
  mulf (Host.divf (addf
      (Host.divf (Host.reduceAdd u (constant (F := F) ⟨0, ![]⟩ .f32 0x00000000#32) hred hS)
        (broadcastInDim ⟨1, ![8]⟩ ![] hb (constant (F := F) ⟨0, ![]⟩ .f32 0x45800000#32)))
      (Host.divf (Host.reduceAdd v (constant (F := F) ⟨0, ![]⟩ .f32 0x00000000#32) hred hS)
        (broadcastInDim ⟨1, ![8]⟩ ![] hb (constant (F := F) ⟨0, ![]⟩ .f32 0x45800000#32))))
    (broadcastInDim ⟨1, ![8]⟩ ![] hb (constant (F := F) ⟨0, ![]⟩ .f32 0x40000000#32)))
    (broadcastInDim ⟨1, ![8]⟩ ![] hb (constant (F := F) ⟨0, ![]⟩ .f32 0x3F800000#32))

/-- The table of distances from A's points to their nearest neighbours in B. -/
def nearRows (A B : Pts) : FVec Ideal ⟨2, ![8, 4096]⟩ .f32 :=
  fun i => near1 A B ⟨(i 0).val, (i 0).isLt⟩ ⟨(i 1).val, (i 1).isLt⟩

/-- The table of distances from B's points to their nearest neighbours in A. -/
def nearCols (A B : Pts) : FVec Ideal ⟨2, ![8, 4096]⟩ .f32 :=
  fun i => near2 A B ⟨(i 0).val, (i 0).isLt⟩ ⟨(i 1).val, (i 1).isLt⟩

theorem nearRows_apply (A B : Pts) (b : Fin 8) (ρ : Fin 4096) : nearRows A B (ix2 b ρ) = near1 A B b ρ := rfl
theorem nearCols_apply (A B : Pts) (b : Fin 8) (γ : Fin 4096) : nearCols A B (ix2 b γ) = near2 A B b γ := rfl

/-- The first table as the kernel leaves it, a column per batch. -/
def nearColumn (A B : Pts) : (⟨3, ![8, 4096, 1]⟩ : Shape).Idx → EReal :=
  fun i => near1 A B ⟨(i 0).val, (i 0).isLt⟩ ⟨(i 1).val, (i 1).isLt⟩

/-- The second table as the kernel leaves it, a row per batch. -/
def nearRow (A B : Pts) : (⟨3, ![8, 1, 4096]⟩ : Shape).Idx → EReal :=
  fun i => near2 A B ⟨(i 0).val, (i 0).isLt⟩ ⟨(i 2).val, (i 2).isLt⟩

theorem nearColumn_apply (A B : Pts) (b : Fin 8) (ρ : Fin 4096) (u : Fin 1) : nearColumn A B (ix3 b ρ u) = near1 A B b ρ := rfl
theorem nearRow_apply (A B : Pts) (b : Fin 8) (u : Fin 1) (γ : Fin 4096) : nearRow A B (ix3 b u γ) = near2 A B b γ := rfl

/-- The column table at any index whose first two coordinates are (b, ρ). -/
theorem nearColumn_eq (A B : Pts) (i : (⟨3, ![8, 4096, 1]⟩ : Shape).Idx) (b : Fin 8) (ρ : Fin 4096)
    (h0 : (i 0).val = b.val) (h1 : (i 1).val = ρ.val) : nearColumn A B i = near1 A B b ρ := by
  unfold nearColumn
  exact congrArg₂ (near1 A B) (Fin.ext h0) (Fin.ext h1)

/-- The row table at any index whose outer coordinates are (b, γ). -/
theorem nearRow_eq (A B : Pts) (i : (⟨3, ![8, 1, 4096]⟩ : Shape).Idx) (b : Fin 8) (γ : Fin 4096)
    (h0 : (i 0).val = b.val) (h2 : (i 2).val = γ.val) : nearRow A B i = near2 A B b γ := by
  unfold nearRow
  exact congrArg₂ (near2 A B) (Fin.ext h0) (Fin.ext h2)

end Cert.Spec

end
-- ==== Proof.Final.lean ====
/-
  The kernel's result, over the extended reals.

  A row tile's output block is written back after the tile's last lane tile, when its accumulator has seen every point of
  B; a batch's second output block is written back after the batch's last position, when its accumulator has seen every
  point of A. So the blocks written back are the blocks of the two tables of nearest-neighbour distances, they fill both
  output arrays, and the host lines after the kernel — flatten each table to `[8, 4096]`, then the common closing lines —
  give the common result.
-/
import proofs.«155650_j8254927143419_2_alg».proof.Proof.Chain
import proofs.«155650_j8254927143419_2_alg».proof.Proof.Result

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Chain Cert.Spec Cert.MinLaws Cert.Lib.CoordPlane

variable (m : (ℓ : Loc nD τ sig) → Buf (Elt Ideal) ℓ) (ρ : Dev nD → PrngReg)

/-! ## The first output array: the distances from A's points -/

/-- The block written back after a row tile's last lane tile. -/
theorem out4_block (c : Dev nD) (t : Fin cfg0.N) (h3 : t.val % 4 = 3) :
    ((outsAt0 m c t.val t.isLt).1 : S1x2048x1.Idx → Ideal .f32)
      = fun y => near1 (setA m c) (setB m c) (batch t) ⟨t.val / 4 % 2 * 2048 + (y 1).val, by have h : (y 1).val < 2048 := (y 1).isLt; omega⟩ := by
  funext y
  obtain ⟨a, r, b, rfl⟩ : ∃ (a : Fin 1) (r : Fin 2048) (b : Fin 1), y = ix3 a r b := ⟨y 0, y 1, y 2, eq_ix3 y⟩
  obtain rfl : a = 0 := Subsingleton.elim _ _
  obtain rfl : b = 0 := Subsingleton.elim _ _
  exact out4_at m c t h3 r

/-- It is that position's block of the table. -/
theorem flushed4_eq (c : Dev nD) (t : Fin cfg0.N) (hf : (cfg0.win 4).flush t = true) :
    (dats m 0 c).flushed 4 t = ((cfg0.win 4).blk t).view.read (Elt Ideal) (nearColumn (setA m c) (setB m c)) := by
  have h3 := (flush0_4 t).mp hf
  show (cfg0.win 4).cut (grid0.coords t) ((dats m 0 c).after 4 t) = _
  rw [after0_4, out4_block m c t h3]
  obtain ⟨-, -, -, -, ⟨e0, e1, e2⟩, -⟩ := idx_facts t
  funext j
  have hj0 : (j 0).val < 1 := (j 0).isLt
  have hj1 : (j 1).val < 2048 := (j 1).isLt
  show near1 (setA m c) (setB m c) (batch t) ⟨t.val / 4 % 2 * 2048 + (j 1).val, by omega⟩
      = nearColumn (setA m c) (setB m c) (((cfg0.win 4).blk t).view.emb j)
  refine (nearColumn_eq _ _ _ (batch t) ⟨t.val / 4 % 2 * 2048 + (j 1).val, by omega⟩ ?_ ?_).symm
  · show win0_4.index t (0 : Fin 3) * 1 + 1 * (j 0).val = t.val / 8
    rw [e0]; omega
  · show win0_4.index t (1 : Fin 3) * 2048 + 1 * (j 1).val = t.val / 4 % 2 * 2048 + (j 1).val
    rw [e1]; omega

theorem mem_blk4 (t : Fin cfg0.N) (i : S8x4096x1.Idx) :
    i ∈ ((cfg0.win 4).blk t).view.set
      ↔ ∀ a : Fin 3, win0_4.index t a * S1x2048x1.size a ≤ (i a).val ∧ (i a).val < win0_4.index t a * S1x2048x1.size a + S1x2048x1.size a := by
  show i ∈ ((View.whole main_v12_0).slice (win0_4.rect t)).set ↔ _
  rw [View.set_slice_whole, Rect.mem_set_unit]
  exact Iff.rfl

/-- Every entry of the array lies in the block some row tile writes back. -/
theorem cover4 (i : S8x4096x1.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1 := (i 2).isLt
  have hlt : 8 * (i 0).val + 4 * ((i 1).val / 2048) + 3 < cfg0.N := lt_of_lt_of_eq (by omega) N_0.symm
  obtain ⟨-, -, -, -, ⟨e0, e1, e2⟩, -⟩ := idx_facts ⟨8 * (i 0).val + 4 * ((i 1).val / 2048) + 3, hlt⟩
  refine ⟨⟨8 * (i 0).val + 4 * ((i 1).val / 2048) + 3, hlt⟩, (flush0_4 _).mpr (by show (8 * (i 0).val + 4 * ((i 1).val / 2048) + 3) % 4 = 3; omega), ?_⟩
  rw [mem_blk4]
  intro a
  match a with
  | ⟨0, _⟩ =>
    show win0_4.index _ (0 : Fin 3) * 1 ≤ (i 0).val ∧ (i 0).val < win0_4.index _ (0 : Fin 3) * 1 + 1
    rw [e0]
    show (8 * (i 0).val + 4 * ((i 1).val / 2048) + 3) / 8 * 1 ≤ (i 0).val ∧ (i 0).val < (8 * (i 0).val + 4 * ((i 1).val / 2048) + 3) / 8 * 1 + 1
    omega
  | ⟨1, _⟩ =>
    show win0_4.index _ (1 : Fin 3) * 2048 ≤ (i 1).val ∧ (i 1).val < win0_4.index _ (1 : Fin 3) * 2048 + 2048
    rw [e1]
    show (8 * (i 0).val + 4 * ((i 1).val / 2048) + 3) / 4 % 2 * 2048 ≤ (i 1).val ∧ (i 1).val < (8 * (i 0).val + 4 * ((i 1).val / 2048) + 3) / 4 % 2 * 2048 + 2048
    omega
  | ⟨2, _⟩ =>
    show win0_4.index _ (2 : Fin 3) * 1 ≤ (i 2).val ∧ (i 2).val < win0_4.index _ (2 : Fin 3) * 1 + 1
    rw [e2]
    omega

/-- The first output array after the run. -/
theorem final4 (c : Dev nD) : (dats m 0 c).arrAt 4 cfg0.N = nearColumn (setA m c) (setB m c) :=
  (dats m 0 c).arrAt_eq_of_cover 4 (nearColumn (setA m c) (setB m c)) (flushed4_eq m c) cover4

/-! ## The second output array: the distances from B's points -/

/-- The block written back after a batch's last position. -/
theorem out5_block (c : Dev nD) (t : Fin cfg0.N) (h7 : t.val % 8 = 7) :
    ((outsAt0 m c t.val t.isLt).2.1 : S1x1x4096.Idx → Ideal .f32)
      = fun y => near2 (setA m c) (setB m c) (batch t) ⟨(y 2).val, (y 2).isLt⟩ := by
  funext y
  obtain ⟨a, b, γ, rfl⟩ : ∃ (a : Fin 1) (b : Fin 1) (γ : Fin 4096), y = ix3 a b γ := ⟨y 0, y 1, y 2, eq_ix3 y⟩
  obtain rfl : a = 0 := Subsingleton.elim _ _
  obtain rfl : b = 0 := Subsingleton.elim _ _
  exact out5_at m c t h7 γ

/-- It is that batch's block of the table. -/
theorem flushed5_eq (c : Dev nD) (t : Fin cfg0.N) (hf : (cfg0.win 5).flush t = true) :
    (dats m 0 c).flushed 5 t = ((cfg0.win 5).blk t).view.read (Elt Ideal) (nearRow (setA m c) (setB m c)) := by
  have h7 := (flush0_5 t).mp hf
  show (cfg0.win 5).cut (grid0.coords t) ((dats m 0 c).after 5 t) = _
  rw [after0_5, out5_block m c t h7]
  obtain ⟨-, -, -, -, -, ⟨e0, e1, e2⟩, -⟩ := idx_facts t
  funext j
  have hj0 : (j 0).val < 1 := (j 0).isLt
  have hj2 : (j 2).val < 4096 := (j 2).isLt
  show near2 (setA m c) (setB m c) (batch t) ⟨(j 2).val, hj2⟩
      = nearRow (setA m c) (setB m c) (((cfg0.win 5).blk t).view.emb j)
  refine (nearRow_eq _ _ _ (batch t) ⟨(j 2).val, hj2⟩ ?_ ?_).symm
  · show win0_5.index t (0 : Fin 3) * 1 + 1 * (j 0).val = t.val / 8
    rw [e0]; omega
  · show win0_5.index t (2 : Fin 3) * 4096 + 1 * (j 2).val = (j 2).val
    rw [e2]; omega

theorem mem_blk5 (t : Fin cfg0.N) (i : S8x1x4096.Idx) :
    i ∈ ((cfg0.win 5).blk t).view.set
      ↔ ∀ a : Fin 3, win0_5.index t a * S1x1x4096.size a ≤ (i a).val ∧ (i a).val < win0_5.index t a * S1x1x4096.size a + S1x1x4096.size a := by
  show i ∈ ((View.whole main_v12_1).slice (win0_5.rect t)).set ↔ _
  rw [View.set_slice_whole, Rect.mem_set_unit]
  exact Iff.rfl

/-- Every entry of the array lies in the block its batch writes back. -/
theorem cover5 (i : S8x1x4096.Idx) : ∃ t : Fin cfg0.N, (cfg0.win 5).flush t = true ∧ i ∈ ((cfg0.win 5).blk t).view.set := by
  have h0 : (i 0).val < 8 := (i 0).isLt
  have h1 : (i 1).val < 1 := (i 1).isLt
  have h2 : (i 2).val < 4096 := (i 2).isLt
  have hlt : 8 * (i 0).val + 7 < cfg0.N := lt_of_lt_of_eq (by omega) N_0.symm
  obtain ⟨-, -, -, -, -, ⟨e0, e1, e2⟩, -⟩ := idx_facts ⟨8 * (i 0).val + 7, hlt⟩
  refine ⟨⟨8 * (i 0).val + 7, hlt⟩, (flush0_5 _).mpr (by show (8 * (i 0).val + 7) % 8 = 7; omega), ?_⟩
  rw [mem_blk5]
  intro a
  match a with
  | ⟨0, _⟩ =>
    show win0_5.index _ (0 : Fin 3) * 1 ≤ (i 0).val ∧ (i 0).val < win0_5.index _ (0 : Fin 3) * 1 + 1
    rw [e0]
    show (8 * (i 0).val + 7) / 8 * 1 ≤ (i 0).val ∧ (i 0).val < (8 * (i 0).val + 7) / 8 * 1 + 1
    omega
  | ⟨1, _⟩ =>
    show win0_5.index _ (1 : Fin 3) * 1 ≤ (i 1).val ∧ (i 1).val < win0_5.index _ (1 : Fin 3) * 1 + 1
    rw [e1]
    omega
  | ⟨2, _⟩ =>
    show win0_5.index _ (2 : Fin 3) * 4096 ≤ (i 2).val ∧ (i 2).val < win0_5.index _ (2 : Fin 3) * 4096 + 4096
    rw [e2]
    omega

/-- The second output array after the run. -/
theorem final5 (c : Dev nD) : (dats m 0 c).arrAt 5 cfg0.N = nearRow (setA m c) (setB m c) :=
  (dats m 0 c).arrAt_eq_of_cover 5 (nearRow (setA m c) (setB m c)) (flushed5_eq m c) cover5

/-! ## The host lines after the kernel -/

/-- A column table flattened is the table; -/
theorem flat4 (c : Dev nD) :
    shapeCast S8x4096 (nearColumn (setA m c) (setB m c)) shapeCasts_S8x4096x1_S8x4096 = nearRows (setA m c) (setB m c) :=
  funext fun i => by
    obtain ⟨b, ρ, rfl⟩ : ∃ (b : Fin 8) (ρ : Fin 4096), i = ix2 b ρ := ⟨i 0, i 1, eq_ix2 i⟩
    exact columnFlat_apply _ _ b ρ

/-- a row table flattened is the table. -/
theorem flat5 (c : Dev nD) :
    shapeCast S8x4096 (nearRow (setA m c) (setB m c)) shapeCasts_S8x1x4096_S8x4096 = nearCols (setA m c) (setB m c) :=
  funext fun i => by
    obtain ⟨b, γ, rfl⟩ : ∃ (b : Fin 8) (γ : Fin 4096), i = ix2 b γ := ⟨i 0, i 1, eq_ix2 i⟩
    exact rowFlat_apply _ _ b γ

/-- The program's result buffer after the host lines that follow the kernel. -/
theorem tail_eq (c : Dev nD) : Pipeline.afterTail₀ cfgs (dats m) 0 (V0 m) [hostOps1] c main_v25
    = meanOfMeans (F := Ideal) reducesTo_S8x4096_S8_d1 h_S_ bcast_S_S8 (nearRows (setA m c) (setB m c)) (nearCols (setA m c) (setB m c)) := by
  have w4 : Pipeline.withArrays (cfgs 0).spec c (V0 m c) (fun w => (dats m 0 c).arrAt w (cfgs 0).N) (Proc.devRef .tc main_v12_0)
      = nearColumn (setA m c) (setB m c) :=
    (Pipeline.withArrays_arr spec0 launch0.win.arr_inj c _ _ 4).trans (final4 m c)
  have w5 : Pipeline.withArrays (cfgs 0).spec c (V0 m c) (fun w => (dats m 0 c).arrAt w (cfgs 0).N) (Proc.devRef .tc main_v12_1)
      = nearRow (setA m c) (setB m c) :=
    (Pipeline.withArrays_arr spec0 launch0.win.arr_inj c _ _ 5).trans (final5 m c)
  unfold Pipeline.afterTail₀
  show StableHlo.after hostOps1 _ (Proc.devRef .tc main_v25) = _
  after_results
  show meanOfMeans (F := Ideal) reducesTo_S8x4096_S8_d1 h_S_ bcast_S_S8
      (shapeCast S8x4096 (Pipeline.withArrays (cfgs 0).spec c (V0 m c) (fun w => (dats m 0 c).arrAt w (cfgs 0).N) (Proc.devRef .tc main_v12_0)) shapeCasts_S8x4096x1_S8x4096)
      (shapeCast S8x4096 (Pipeline.withArrays (cfgs 0).spec c (V0 m c) (fun w => (dats m 0 c).arrAt w (cfgs 0).N) (Proc.devRef .tc main_v12_1)) shapeCasts_S8x1x4096_S8x4096) = _
  rw [w4, w5, flat4, flat5]

/-! ## The run, read -/

/-- Every weakly fair execution of the idealized kernel program ends with its result at the common closing lines of the
    two tables of nearest-neighbour distances, and its arguments unchanged. -/
theorem run : θ_run defs (onTc (τ := τ) (main (F := Ideal))) ⟨m, fun _ => 0, ρ⟩ fun r => ∀ c : Dev nD,
      r.2.mem ((c.tc : Thread nD τ).loc main_v25)
        = meanOfMeans (F := Ideal) reducesTo_S8x4096_S8_d1 h_S_ bcast_S_S8 (nearRows (setA m c) (setB m c)) (nearCols (setA m c) (setB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v25 (Pipeline.mem_restRefs_of main_v25 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference, entry by entry, over the extended reals.

  The reference spreads both point sets to an `[8, 4096, 4096, 2]` table of coordinate differences, squares, sums the two
  coordinates from zero, takes the square root, and reduces the `[8, 4096, 4096]` table of distances by minimum from +∞
  along its last axis (for A's points) and along its middle axis (for B's points). Entry (b, ρ, γ) of the distance table
  is the root of D(ρ, γ); a minimum of roots is the root of the minimum, so the two reduced tables are the tables of
  nearest-neighbour distances, and the closing host lines are the common ones.
-/
import proofs.«155650_j8254927143419_2_alg».proof.Proof.Gen.ReferenceIdeal.Read
import proofs.«155650_j8254927143419_2_alg».proof.Proof.Result
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Spec Cert.MinLaws

variable (x0 x1 : (⟨S8x4096x2, .f32⟩ : BufTy).Contents (Elt Ideal))

/-- Where entry (b, ρ, γ, k) of the spread tables reads the two arguments. -/
theorem idxA (b : Fin 8) (ρ γ : Fin 4096) (k : Fin 2) :
    idx_main_v0 (idx_main_v2 (idx_main_v6 (ix3 b ρ γ) k)) = ix3 b ρ k := by
  funext a; apply Fin.ext
  match a with
  | ⟨0, _⟩ => rfl
  | ⟨1, _⟩ => rfl
  | ⟨2, _⟩ => rfl

theorem idxB (b : Fin 8) (ρ γ : Fin 4096) (k : Fin 2) :
    idx_main_v1 (idx_main_v3 (idx_main_v6 (ix3 b ρ γ) k)) = ix3 b γ k := by
  funext a; apply Fin.ext
  match a with
  | ⟨0, _⟩ => rfl
  | ⟨1, _⟩ => rfl
  | ⟨2, _⟩ => rfl

/-- The coordinate difference at (b, ρ, γ, k). -/
theorem diff_apply (b : Fin 8) (ρ γ : Fin 4096) (k : Fin 2) :
    val_main_v4 (F := Ideal) x0 x1 (idx_main_v6 (ix3 b ρ γ) k) = x0 (ix3 b ρ k) - x1 (ix3 b γ k) := by
  rw [val_main_v4_apply, val_main_v2_apply, val_main_v3_apply, val_main_v0_apply, val_main_v1_apply, idxA, idxB]
  rfl

/-- The squared distance at (b, ρ, γ). -/
theorem sqdist_apply (b : Fin 8) (ρ γ : Fin 4096) :
    val_main_v6 (F := Ideal) x0 x1 (ix3 b ρ γ) = D x0 x1 b ρ γ := by
  rw [val_main_v6_apply, Fin.sum_univ_two, val_main_v5_apply, val_main_v5_apply, diff_apply, diff_apply]
  show Ideal.ofBits .f32 0x00000000#32 + ((x0 (ix3 b ρ (0 : Fin 2)) - x1 (ix3 b γ (0 : Fin 2))) * (x0 (ix3 b ρ (0 : Fin 2)) - x1 (ix3 b γ (0 : Fin 2)))
      + (x0 (ix3 b ρ (1 : Fin 2)) - x1 (ix3 b γ (1 : Fin 2))) * (x0 (ix3 b ρ (1 : Fin 2)) - x1 (ix3 b γ (1 : Fin 2)))) = _
  rw [Ideal.ofBits_zero_f32, zero_add]
  rfl

/-- The distance at (b, ρ, γ). -/
theorem dist_apply (b : Fin 8) (ρ γ : Fin 4096) :
    val_main_v7 (F := Ideal) x0 x1 (ix3 b ρ γ) = Ideal.sqrt (D x0 x1 b ρ γ) := by
  rw [val_main_v7_apply, sqdist_apply]
  rfl

theorem lift_last (h : S8x4096x4096.Reduces [2] S8x4096) (b : Fin 8) (ρ : Fin 4096) (k : Fin (S8x4096x4096.size 2)) :
    h.lift (ix2 b ρ) k = ix3 b ρ (⟨k.val, k.isLt⟩ : Fin 4096) := by
  funext c; apply Fin.ext
  fin_cases c <;> rfl

theorem lift_mid (h : S8x4096x4096.Reduces [1] S8x4096) (b : Fin 8) (γ : Fin 4096) (k : Fin (S8x4096x4096.size 1)) :
    h.lift (ix2 b γ) k = ix3 b (⟨k.val, k.isLt⟩ : Fin 4096) γ := by
  funext c; apply Fin.ext
  fin_cases c <;> rfl

/-- The table reduced along its last axis: the nearest-neighbour distances of A's points. -/
theorem rows_apply (b : Fin 8) (ρ : Fin 4096) : val_main_v8 (F := Ideal) x0 x1 (ix2 b ρ) = near1 x0 x1 b ρ := by
  have h : S8x4096x4096.Reduces [2] S8x4096 := by decide
  unfold val_main_v8
  rw [Host.reduce_eq_fold_single FloatOps.minimumf _ _ reducesTo_S8x4096x4096_S8x4096_d2 h h_S_, near1_eq, ← fold_min_top]
  show (Finset.univ : Finset (Fin 4096)).fold min (Ideal.ofBits .f32 0x7F800000#32) (fun k => val_main_v7 (F := Ideal) x0 x1 (h.lift (ix2 b ρ) k)) = _
  rw [inf_word]
  refine congrArg (fun f => Finset.fold min (⊤ : EReal) f (Finset.univ : Finset (Fin 4096))) (funext fun k => ?_)
  rw [lift_last, dist_apply]
  rfl

/-- The table reduced along its middle axis: the nearest-neighbour distances of B's points. -/
theorem cols_apply (b : Fin 8) (γ : Fin 4096) : val_main_v12 (F := Ideal) x0 x1 (ix2 b γ) = near2 x0 x1 b γ := by
  have h : S8x4096x4096.Reduces [1] S8x4096 := by decide
  unfold val_main_v12
  rw [Host.reduce_eq_fold_single FloatOps.minimumf _ _ reducesTo_S8x4096x4096_S8x4096_d1 h h_S_, near2_eq, ← fold_min_top]
  show (Finset.univ : Finset (Fin 4096)).fold min (Ideal.ofBits .f32 0x7F800000#32) (fun k => val_main_v7 (F := Ideal) x0 x1 (h.lift (ix2 b γ) k)) = _
  rw [inf_word]
  refine congrArg (fun f => Finset.fold min (⊤ : EReal) f (Finset.univ : Finset (Fin 4096))) (funext fun k => ?_)
  rw [lift_mid, dist_apply]
  rfl

/-- The reference's result is the common closing lines of the two tables of nearest-neighbour distances. -/
theorem result_eq :
    val_main_v20 (F := Ideal) x0 x1 = meanOfMeans (F := Ideal) reducesTo_S8x4096_S8_d1 h_S_ bcast_S_S8 (nearRows x0 x1) (nearCols x0 x1) := by
  have hu : val_main_v8 (F := Ideal) x0 x1 = nearRows x0 x1 := funext fun i => by
    obtain ⟨b, ρ, rfl⟩ : ∃ (b : Fin 8) (ρ : Fin 4096), i = ix2 b ρ := ⟨i 0, i 1, eq_ix2 i⟩
    exact rows_apply x0 x1 b ρ
  have hv : val_main_v12 (F := Ideal) x0 x1 = nearCols x0 x1 := funext fun i => by
    obtain ⟨b, γ, rfl⟩ : ∃ (b : Fin 8) (γ : Fin 4096), i = ix2 b γ := ⟨i 0, i 1, eq_ix2 i⟩
    exact cols_apply x0 x1 b γ
  show meanOfMeans (F := Ideal) reducesTo_S8x4096_S8_d1 h_S_ bcast_S_S8 (val_main_v8 (F := Ideal) x0 x1) (val_main_v12 (F := Ideal) x0 x1) = _
  rw [hu, hv]

end Cert.ReferenceIdeal.RefValue

end
-- ==== Proof.lean ====
/-
  The proof of `Cert.Claim`: a tiled nearest-neighbour (Chamfer) distance kernel against its all-pairs reference.

  Two sets A and B of 4096 plane points in each of 8 batches. The reference builds the `[8, 4096, 4096]` table of
  distances |a_ρ − b_γ| = √D(ρ, γ), D the squared distance, takes its minimum along each axis from +∞, averages each of the
  two `[8, 4096]` tables of minima along its rows, and returns half the sum of the two means (times one).
  The kernel never forms the table. It walks a grid of 8 batches × 2 row tiles (2048 points of A) × 4 lane tiles (1024
  points of B), keeps a running minimum of the SQUARED distances per point of the row tile and per point of B, folds
  each 2048 × 1024 tile of squared distances into both, and writes the square roots of the running minima out; the host
  then averages exactly as the reference does.
  Over the extended reals the two agree because the square root is monotone (also at +∞, the empty minimum): the root of
  a minimum is the minimum of the roots; and because a minimum taken tile by tile is the minimum over the whole axis.
  No property of the inputs is used: the law holds at the infinities too.

  The kernel's frames are the generated ones; the reference's frame is its generated run with the result dropped; the
  idealization rewrote nothing. The value of the kernel is read off the generated frame run: the stores the symbolic run
  found, as values (Pieces); the body's arithmetic at an entry (PayAt); where each block sits in the arguments (Blocks);
  one step of the running minima (Steps); the invariant after every grid position (Chain); the two output arrays and
  the host lines after the kernel (Final). The reference is read entry by entry over its generated run (RefValue).
-/
import proofs.«155650_j8254927143419_2_alg».proof.Defs
import proofs.«155650_j8254927143419_2_alg».proof.Proof.Gen.Kernel
import proofs.«155650_j8254927143419_2_alg».proof.Proof.Gen.Kernel.Skeleton
import proofs.«155650_j8254927143419_2_alg».proof.Proof.Gen.Kernel.Launch
import proofs.«155650_j8254927143419_2_alg».proof.Proof.Gen.Kernel.Points
import proofs.«155650_j8254927143419_2_alg».proof.Proof.Gen.Kernel.Frame
import proofs.«155650_j8254927143419_2_alg».proof.Proof.Gen.KernelIdeal
import proofs.«155650_j8254927143419_2_alg».proof.Proof.Gen.KernelIdeal.Skeleton
import proofs.«155650_j8254927143419_2_alg».proof.Proof.Gen.KernelIdeal.Launch
import proofs.«155650_j8254927143419_2_alg».proof.Proof.Gen.KernelIdeal.Points
import proofs.«155650_j8254927143419_2_alg».proof.Proof.Gen.KernelIdeal.Frame
import proofs.«155650_j8254927143419_2_alg».proof.Proof.Gen.ReferenceIdeal
import proofs.«155650_j8254927143419_2_alg».proof.Proof.Gen.Pre_finite_inputs
import proofs.«155650_j8254927143419_2_alg».proof.Proof.Gen.ReferenceIdeal.Run
import proofs.«155650_j8254927143419_2_alg».proof.Proof.Gen.ReferenceIdeal.Read
import proofs.«155650_j8254927143419_2_alg».proof.Proof.Final
import proofs.«155650_j8254927143419_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the common closing lines of the two tables of nearest-neighbour distances of the same arguments. -/
theorem algebraic : Cert.algebraic_KernelIdeal_ReferenceIdeal := by
  intro m ρ m' ρ' _ hagree
  refine ⟨fun c => Cert.Spec.meanOfMeans (F := Ideal) Cert.KernelIdeal.Gen.reducesTo_S8x4096_S8_d1 Cert.KernelIdeal.Gen.h_S_ Cert.KernelIdeal.Gen.bcast_S_S8
      (Cert.Spec.nearRows (Cert.KernelIdeal.Blocks.setA m c) (Cert.KernelIdeal.Blocks.setB m c))
      (Cert.Spec.nearCols (Cert.KernelIdeal.Blocks.setA m c) (Cert.KernelIdeal.Blocks.setB m c)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
